-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x65536 : Shape := ⟨2, ![64, 65536]⟩
abbrev S65536x64 : Shape := ⟨2, ![65536, 64]⟩
abbrev S256x64 : Shape := ⟨2, ![256, 64]⟩
abbrev S_ : Shape := ⟨0, ![]⟩

class Facts : Prop where
  bcast_S_S64x65536 : S_.BroadcastsInDim S64x65536 (![] : Fin 0 → Fin S64x65536.rank)
  reducesTo_S64x65536_S_d0_1 : S64x65536.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  main_v18

def fn {F : FTy → Type} [FloatOps F] (main_arg0 : FVec F S64x65536 .f32) (main_arg1 : FVec F S64x65536 .f32) (main_arg2 : FVec F S65536x64 .f32) (main_arg3 : FVec F S256x64 .f32) : IVec S_ 1 :=
  let main_v0 : FVec F S64x65536 .f32 := Host.absf main_arg0
  let main_cst : FVec F S_ .f32 := constant S_ .f32 0x7F800000#32
  let main_v1 : FVec F S64x65536 .f32 := broadcastInDim S64x65536 ![] bcast_S_S64x65536 main_cst
  let main_v2 : IVec S64x65536 1 := cmpf .olt main_v0 main_v1
  let main_c : IVec S_ 1 := constantI S_ 1 1#1
  let main_v3 : IVec S_ 1 := (fun x v => Host.reduce IntOp.andi x v reducesTo_S64x65536_S_d0_1 h_S_) main_v2 main_c
  let main_v4 : FVec F S64x65536 .f32 := Host.absf main_arg1
  let main_cst_0 : FVec F S_ .f32 := constant S_ .f32 0x7F800000#32
  let main_v5 : FVec F S64x65536 .f32 := broadcastInDim S64x65536 ![] bcast_S_S64x65536 main_cst_0
  let main_v6 : IVec S64x65536 1 := cmpf .olt main_v4 main_v5
  let main_c_1 : IVec S_ 1 := constantI S_ 1 1#1
  let main_v7 : IVec S_ 1 := (fun x v => Host.reduce IntOp.andi x v reducesTo_S64x65536_S_d0_1 h_S_) main_v6 main_c_1
  let main_v8 : IVec S_ 1 := andi main_v3 main_v7
  let main_v9 : FVec F S65536x64 .f32 := Host.absf main_arg2
  let main_cst_2 : FVec F S_ .f32 := constant S_ .f32 0x7F800000#32
  let main_v10 : FVec F S65536x64 .f32 := broadcastInDim S65536x64 ![] bcast_S_S65536x64 main_cst_2
  let main_v11 : IVec S65536x64 1 := cmpf .olt main_v9 main_v10
  let main_c_3 : IVec S_ 1 := constantI S_ 1 1#1
  let main_v12 : IVec S_ 1 := (fun x v => Host.reduce IntOp.andi x v reducesTo_S65536x64_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_v13 main_v16
-- ==== Kernel.lean ====
abbrev S64x65536 : Shape := ⟨2, ![64, 65536]⟩
abbrev S65536x64 : Shape := ⟨2, ![65536, 64]⟩
abbrev S256x64 : Shape := ⟨2, ![256, 64]⟩
abbrev S64x4096 : Shape := ⟨2, ![64, 4096]⟩
abbrev S4096x64 : Shape := ⟨2, ![4096, 64]⟩
abbrev S256x4096 : Shape := ⟨2, ![256, 4096]⟩
abbrev S4096 : Shape := ⟨1, ![4096]⟩
abbrev S1x4096 : Shape := ⟨2, ![1, 4096]⟩

abbrev nBuf : Space → Nat
  | .hbm => 6
  | .vmem => 13
  | .smem => 0
  | _ => 0

abbrev bufTy : (tb : Table) → Fin (tcTables nBuf tb) → BufTy
  | .hbm, ⟨0, _⟩ => ⟨S64x65536, .f32⟩
  | .hbm, ⟨1, _⟩ => ⟨S64x65536, .f32⟩
  | .hbm, ⟨2, _⟩ => ⟨S65536x64, .f32⟩
  | .hbm, ⟨3, _⟩ => ⟨S256x64, .f32⟩
  | .hbm, ⟨4, _⟩ => ⟨S256x64, .f32⟩
  | .hbm, ⟨5, _⟩ => ⟨S65536x64, .f32⟩
  | .local _ .vmem, ⟨0, _⟩ => ⟨S256x64, .f32⟩
  | .local _ .vmem, ⟨1, _⟩ => ⟨S64x4096, .f32⟩
  | .local _ .vmem, ⟨2, _⟩ => ⟨S64x4096, .f32⟩
  | .local _ .vmem, ⟨3, _⟩ => ⟨S4096x64, .f32⟩
  | .local _ .vmem, ⟨4, _⟩ => ⟨S4096x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S64x4096, .f32⟩
  | .local _ .vmem, ⟨9, _⟩ => ⟨S64x4096, .f32⟩
  | .local _ .vmem, ⟨10, _⟩ => ⟨S256x64, .f32⟩
  | .local _ .vmem, ⟨11, _⟩ => ⟨S4096x64, .f32⟩
  | .local _ .vmem, ⟨12, _⟩ => ⟨S4096x64, .f32⟩
  | _, _ => ⟨S64x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v31 : BitVec 1 := Scalar.cmpi .eq arg0 c15_i32
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256x64_S256x64_0_0 : ∀ a, (![0, 0] : Fin 2 → Nat) a + S256x64.size a ≤ S256x64.size a
  h_S256x64 : 0 < S256x64.numel
  shapeCasts_S256x64_S256x64 : S256x64.ShapeCasts S256x64
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  reduces_S64x4096_S4096 : S64x4096.Reduces [0] S4096
  shapeCasts_S4096_S1x4096 : S4096.ShapeCasts S1x4096
  broadcasts_S1x4096_S256x4096 : S1x4096.Broadcasts S256x4096
  inb_S4096x64_S4096x64_0_0 : ∀ a, (![0, 0] : Fin 2 → Nat) a + S4096x64.size a ≤ S4096x64.size a
  h_S4096x64 : 0 < S4096x64.numel
  dot_S256x64_S64x4096_S256x4096_1_0_0_1_n_n_wf : DotDims.WF S256x64 S64x4096 S256x4096 [1] [0] [0] [1] [] []
  dot_S256x4096_S4096x64_S256x64_1_0_0_1_n_n_wf : DotDims.WF S256x4096 S4096x64 S256x64 [1] [0] [0] [1] [] []
  dot_S256x4096_S256x64_S4096x64_0_0_1_1_n_n_wf : DotDims.WF S256x4096 S256x64 S4096x64 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S256x64.size a
  hwx0_0 : ∀ i : grid0.Coords, EltTy.bits .f32 = 32 ∨ (Rect.block (s := S256x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x65536.size a
  hwx0_1 : ∀ i : grid0.Coords, EltTy.bits .f32 = 32 ∨ (Rect.block (s := S64x65536) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S65536x64.size a
  hwx0_2 : ∀ i : grid0.Coords, EltTy.bits .f32 = 32 ∨ (Rect.block (s := S65536x64) S4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x64.size a ≤ S256x64.size a
  hwx1_0 : ∀ i : grid1.Coords, EltTy.bits .f32 = 32 ∨ (Rect.block (s := S256x64) S256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x4096.size a ≤ S64x65536.size a
  hwx1_1 : ∀ i : grid1.Coords, EltTy.bits .f32 = 32 ∨ (Rect.block (s := S64x65536) S64x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S65536x64.size a
  hwx1_3 : ∀ i : grid1.Coords, EltTy.bits .f32 = 32 ∨ (Rect.block (s := S65536x64) S4096x64.size (cc1_transform_3 i) (hinb1_3 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x4096_S256x64_S4096x64_0_0_1_1_n_n : DotDims S256x4096 S256x64 S4096x64 where
  lhsContracting := [0]
  rhsContracting := [0]
  lhsNonContracting := [1]
  rhsNonContracting := [1]
  lhsBatch := []
  rhsBatch := []
  wf := dot_S256x4096_S256x64_S4096x64_0_0_1_1_n_n_wf

abbrev win0_0 : Pipeline.Window sig grid0 :=
  Pipeline.Window.ofSpec (Memref.whole main_arg3) S256x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg3) S256x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x65536 : Shape := ⟨2, ![64, 65536]⟩
abbrev S65536x64 : Shape := ⟨2, ![65536, 64]⟩
abbrev S256x64 : Shape := ⟨2, ![256, 64]⟩
abbrev S_ : Shape := ⟨0, ![]⟩
abbrev S65536 : Shape := ⟨1, ![65536]⟩
abbrev S256x65536 : Shape := ⟨2, ![256, 65536]⟩
abbrev S1x65536 : Shape := ⟨2, ![1, 65536]⟩
abbrev S65536x256 : Shape := ⟨2, ![65536, 256]⟩

abbrev nBuf : Space → Nat
  | .hbm => 47
  | .vmem => 0
  | .smem => 0
  | _ => 0

abbrev bufTy : (tb : Table) → Fin (tcTables nBuf tb) → BufTy
  | .hbm, ⟨0, _⟩ => ⟨S64x65536, .f32⟩
  | .hbm, ⟨1, _⟩ => ⟨S64x65536, .f32⟩
  | .hbm, ⟨2, _⟩ => ⟨S65536x64, .f32⟩
  | .hbm, ⟨3, _⟩ => ⟨S256x64, .f32⟩
  | .hbm, ⟨4, _⟩ => ⟨S64x65536, .f32⟩
  | .hbm, ⟨5, _⟩ => ⟨S_, .f32⟩
  | .hbm, ⟨6, _⟩ => ⟨S65536, .f32⟩
  | .hbm, ⟨7, _⟩ => ⟨S256x65536, .f32⟩
  | .hbm, ⟨8, _⟩ => ⟨S_, .f32⟩
  | .hbm, ⟨9, _⟩ => ⟨S256x65536, .f32⟩
  | .hbm, ⟨10, _⟩ => ⟨S256x65536, .f32⟩
  | .hbm, ⟨11, _⟩ => ⟨S_, .f32⟩
  | .hbm, ⟨12, _⟩ => ⟨S256x65536, .f32⟩
  | .hbm, ⟨13, _⟩ => ⟨S256x65536, .f32⟩
  | .hbm, ⟨14, _⟩ => ⟨S_, .f32⟩
  | .hbm, ⟨15, _⟩ => ⟨S65536, .f32⟩
  | .hbm, ⟨16, _⟩ => ⟨S65536, .f32⟩
  | .hbm, ⟨17, _⟩ => ⟨S1x65536, .f32⟩
  | .hbm, ⟨18, _⟩ => ⟨S256x65536, .f32⟩
  | .hbm, ⟨19, _⟩ => ⟨S256x65536, .f32⟩
  | .hbm, ⟨20, _⟩ => ⟨S256x65536, .f32⟩
  | .hbm, ⟨21, _⟩ => ⟨S_, .f32⟩
  | .hbm, ⟨22, _⟩ => ⟨S256x65536, .f32⟩
  | .hbm, ⟨23, _⟩ => ⟨S256x65536, .f32⟩
  | .hbm, ⟨24, _⟩ => ⟨S256x64, .f32⟩
  | .hbm, ⟨25, _⟩ => ⟨S64x65536, .f32⟩
  | .hbm, ⟨26, _⟩ => ⟨S_, .f32⟩
  | .hbm, ⟨27, _⟩ => ⟨S65536, .f32⟩
  | .hbm, ⟨28, _⟩ => ⟨S256x65536, .f32⟩
  | .hbm, ⟨29, _⟩ => ⟨S_, .f32⟩
  | .hbm, ⟨30, _⟩ => ⟨S256x65536, .f32⟩
  | .hbm, ⟨31, _⟩ => ⟨S256x65536, .f32⟩
  | .hbm, ⟨32, _⟩ => ⟨S_, .f32⟩
  | .hbm, ⟨33, _⟩ => ⟨S256x65536, .f32⟩
  | .hbm, ⟨34, _⟩ => ⟨S256x65536, .f32⟩
  | .hbm, ⟨35, _⟩ => ⟨S_, .f32⟩
  | .hbm, ⟨36, _⟩ => ⟨S65536, .f32⟩
  | .hbm, ⟨37, _⟩ => ⟨S65536, .f32⟩
  | .hbm, ⟨38, _⟩ => ⟨S1x65536, .f32⟩
  | .hbm, ⟨39, _⟩ => ⟨S256x65536, .f32⟩
  | .hbm, ⟨40, _⟩ => ⟨S256x65536, .f32⟩
  | .hbm, ⟨41, _⟩ => ⟨S256x65536, .f32⟩
  | .hbm, ⟨42, _⟩ => ⟨S_, .f32⟩
  | .hbm, ⟨43, _⟩ => ⟨S256x65536, .f32⟩
  | .hbm, ⟨44, _⟩ => ⟨S256x65536, .f32⟩
  | .hbm, ⟨45, _⟩ => ⟨S65536x256, .f32⟩
  | .hbm, ⟨46, _⟩ => ⟨S65536x64, .f32⟩
  | _, _ => ⟨S64x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  reducesTo_S64x65536_S65536_d0 : S64x65536.ReducesTo [0] S65536
  h_S_ : 0 < S_.numel
  bcast_S_S256x65536 : S_.BroadcastsInDim S256x65536 (![] : Fin 0 → Fin S256x65536.rank)
  bcast_S_S65536 : S_.BroadcastsInDim S65536 (![] : Fin 0 → Fin S65536.rank)
  bcast_S65536_S1x65536_1 : S65536.BroadcastsInDim S1x65536 (![1] : Fin 1 → Fin S1x65536.rank)
  bcast_S1x65536_S256x65536_0_1 : S1x65536.BroadcastsInDim S256x65536 (![0, 1] : Fin 2 → Fin S256x65536.rank)
  transposes_S256x65536_S65536x256_1_0 : S256x65536.Transposes [1, 0] S65536x256
  dot_S256x64_S64x65536_S256x65536_1_0_0_1_n_n_wf : DotDims.WF S256x64 S64x65536 S256x65536 [1] [0] [0] [1] [] []
  dot_S256x65536_S65536x64_S256x64_1_0_0_1_n_n_wf : DotDims.WF S256x65536 S65536x64 S256x64 [1] [0] [0] [1] [] []
  dot_S65536x256_S256x64_S65536x64_1_0_0_1_n_n_wf : DotDims.WF S65536x256 S256x64 S65536x64 [1] [0] [0] [1] [] []

variable [Facts₀]

def dot_S256x64_S64x65536_S256x65536_1_0_0_1_n_n : DotDims S256x64 S64x65536 S256x65536 where
  lhsContracting := [1]
  rhsContracting := [0]
  lhsNonContracting := [0]
  rhsNonContracting := [1]
  lhsBatch := []
  rhsBatch := []
  wf := dot_S256x64_S64x65536_S256x65536_1_0_0_1_n_n_wf
def dot_S256x65536_S65536x64_S256x64_1_0_0_1_n_n : DotDims S256x65536 S65536x64 S256x64 where
  lhsContracting := [1]
  rhsContracting := [0]
  lhsNonContracting := [0]
  rhsNonContracting := [1]
  lhsBatch := []
  rhsBatch := []
  wf := dot_S256x65536_S65536x64_S256x64_1_0_0_1_n_n_wf
def dot_S65536x256_S256x64_S65536x64_1_0_0_1_n_n : DotDims S65536x256 S256x64 S65536x64 where
  lhsContracting := [1]
  rhsContracting := [0]
  lhsNonContracting := [0]
  rhsNonContracting := [1]
  lhsBatch := []
  rhsBatch := []
  wf := dot_S65536x256_S256x64_S65536x64_1_0_0_1_n_n_wf

class Facts : Prop extends Facts₀ where

variable [Facts]
-- ==== Proof.RegionOut.lean ====
/-
  The output pass (the program's second kernel region) as a pipeline of four windows — the feature weights, one tile
  of queries, the accumulated key–value table, and one tile of the result — stated at a PARAMETER `V`: whatever
  the TensorCore's buffers hold when the region is entered.  At each of its points the body reads the three input
  blocks whole, and overwrites the whole result tile with one function of them (the generated payload `k1_pay1`);
  it keeps nothing from point to point.  So:

  * each window's block at a point is read off `V` (`iblk1`);
  * what the body leaves in the result tile is the payload of the three input blocks (`out1_3`, `out1_3_eq`):
    a read through the full rectangle at the origin returns the buffer, and one write through it leaves exactly
    what was written;
  * the body, run on whole staging buffers holding `x0 x1 x2` and an arbitrary result tile, hands the inputs back
    unchanged and the result tile at `out1_3 x0 x1 x2` (`sound_kernel1`);
  * the pipeline's proof data records that (`dat1`), an input's buffer holds its block at every point whether or
    not a transfer refilled it there (`before1_0/1/2`: an unrefilled block has not moved), and the body meets the
    pipeline rule's obligation at every point (`body_obligation1`).

  Everything is generic in the float instance.
-/
import proofs.«128242_j35424890257839_1_alg».proof.Proof.Gen.KernelIdeal.Launch
import proofs.«128242_j35424890257839_1_alg».proof.Proof.Gen.KernelIdeal.Skeleton
import proofs.«128242_j35424890257839_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents on entry to the region
variable (V : (c : Dev nD) → (b : Ref sig .tc) → Buf (Elt F) ((c : Thread nD τ).loc b))

/-! ## The blocks -/

/-- Window `w`'s block at point `t`: the part of the window's array, as `V` has it, that the window's index map
    selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The result tile after the body -/

/-- The origin of a rank-2 buffer, as the program spells it, is the zero offset. -/
theorem origin2 : (![0, 0] : Fin 2 → Nat) = fun _ => 0 := funext fun a => by fin_cases a <;> rfl

/-- The full rectangles the body reads and writes through: at the origin, of the buffer's own extents. -/
abbrev fullW : Rect S256x64 := Rect.unit (s := S256x64) ![0, 0] S256x64.size inb_S256x64_S256x64_0_0
abbrev fullQ : Rect S64x4096 := Rect.unit (s := S64x4096) ![0, 0] S64x4096.size inb_S64x4096_S64x4096_0_0
abbrev fullO : Rect S4096x64 := Rect.unit (s := S4096x64) ![0, 0] S4096x64.size inb_S4096x64_S4096x64_0_0

/-- What the body leaves in the result tile, given what the three input buffers read: its single write, through the
    full rectangle, of the payload of the three full reads. -/
def out1_3 (x0 : Vec F S256x64 .f32) (x1 : Vec F S64x4096 .f32) (x2 : Vec F S256x64 .f32) : Vec F S4096x64 .f32 :=
  View.canon [⟨fullO, k1_pay1 (View.ld x0 fullW) (View.ld x1 fullQ) (View.ld x2 fullW)⟩]

/-- A full read is the buffer and a single full write leaves what it wrote: the result tile is the payload of the
    input buffers themselves. -/
theorem out1_3_eq (x0 : Vec F S256x64 .f32) (x1 : Vec F S64x4096 .f32) (x2 : Vec F S256x64 .f32) :
    out1_3 x0 x1 x2 = k1_pay1 x0 x1 x2 := by
  unfold out1_3
  rw [View.canon_unit_zero (S := S4096x64) origin2 inb_S4096x64_S4096x64_0_0,
    View.ld_unit_zero (S := S256x64) origin2 inb_S256x64_S256x64_0_0 x0,
    View.ld_unit_zero (S := S256x64) origin2 inb_S256x64_S256x64_0_0 x2,
    View.ld_unit_zero (S := S64x4096) origin2 inb_S64x4096_S64x4096_0_0 x1]

/-- The single write covers the result tile: every index lies in the full rectangle. -/
theorem fullO_covers (p : Vec F S4096x64 .f32) (y : S4096x64.Idx) :
    ∃ pc ∈ ([⟨fullO, p⟩] : List (View.Piece (Elt F) S4096x64 .f32)), y ∈ pc.1.set :=
  ⟨_, List.mem_singleton_self _, View.mem_set_unit_zero (S := S4096x64) origin2 inb_S4096x64_S4096x64_0_0 y⟩

/-! ## The body's triple -/

set_option maxHeartbeats 1000000 in
/-- The body on whole staging buffers: the three inputs read `x0 x1 x2`, the result tile holds anything. It runs to a
    continuation that is handed the inputs as they were and the result tile at `out1_3 x0 x1 x2`. The body also reads
    the result tile before overwriting it; nothing depends on what that read returns. -/
theorem sound_kernel1 (c : Dev nD) (E : Set ℕ) (i : grid1.Coords)
    (arg1 : Memref sig .tc .vmem S256x64 .f32) (harg1 : arg1.IsWhole) (arg2 : Memref sig .tc .vmem S64x4096 .f32) (harg2 : arg2.IsWhole)
    (arg3 : Memref sig .tc .vmem S256x64 .f32) (harg3 : arg3.IsWhole) (arg4 : Memref sig .tc .vmem S4096x64 .f32) (harg4 : arg4.IsWhole)
    (x0 : Vec F S256x64 .f32) (x1 : Vec F S64x4096 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__out_kernel i arg1 harg1 arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (fullO_covers _)

/-! ## The pipeline's proof data -/

/-- The proof data of the output pass on core `c`. The windowed arrays are as `V` has them. After the body at a
    point, each input's buffer still holds its block, and the result tile holds `out1_3` of the three input blocks.
    The invariant is the plain one of a body that keeps nothing (the scoped rest and the generator register pass
    through untouched); full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## What the body finds in the inputs' buffers

An input window's blocks fill its buffer entirely, the body leaves them in place, and no point is idle for it; so at
every point its current buffer holds the block there — refilled at that point, or left from the point before when the
block index did not move (windows 0 and 2 are filled once, at the first point). -/

/-- What a refill at point `t` puts in input window `w`'s buffer is the block read off `V`. -/
theorem fetched1_0 (c : Dev nD) (t : Fin cfg1.N) (d) : (dat1 V c).fetched 0 t d = iblk1 V c 0 t := by
  unfold Dat.fetched Dat.blockOf iblk1; rw [A_eq1]; try rfl
theorem fetched1_1 (c : Dev nD) (t : Fin cfg1.N) (d) : (dat1 V c).fetched 1 t d = iblk1 V c 1 t := by
  unfold Dat.fetched Dat.blockOf iblk1; rw [A_eq1]; try rfl
theorem fetched1_2 (c : Dev nD) (t : Fin cfg1.N) (d) : (dat1 V c).fetched 2 t d = iblk1 V c 2 t := by
  unfold Dat.fetched Dat.blockOf iblk1; rw [A_eq1]; try rfl

/-- The body leaves each input's block where it was. -/
theorem kept1_0 (c : Dev nD) (t : Fin cfg1.N) :
    (cfg1.win 0).cut (cfg1.grid.coords t) ((dat1 V c).after 0 t) = (dat1 V c).blockOf 0 t := by
  rw [after1_0]; unfold Dat.blockOf iblk1; rw [A_eq1]; try rfl
theorem kept1_1 (c : Dev nD) (t : Fin cfg1.N) :
    (cfg1.win 1).cut (cfg1.grid.coords t) ((dat1 V c).after 1 t) = (dat1 V c).blockOf 1 t := by
  rw [after1_1]; unfold Dat.blockOf iblk1; rw [A_eq1]; try rfl
theorem kept1_2 (c : Dev nD) (t : Fin cfg1.N) :
    (cfg1.win 2).cut (cfg1.grid.coords t) ((dat1 V c).after 2 t) = (dat1 V c).blockOf 2 t := by
  rw [after1_2]; unfold Dat.blockOf iblk1; rw [A_eq1]; try rfl

theorem before1_0 (c : Dev nD) (t : Fin cfg1.N) (d) : (dat1 V c).before 0 t d = iblk1 V c 0 t :=
  ((dat1 V c).before_in_eq_fetched 0 rfl (fun _ => rfl) (fun _ _ _ => rfl) (kept1_0 V c) t d).trans (fetched1_0 V c t d)
theorem before1_1 (c : Dev nD) (t : Fin cfg1.N) (d) : (dat1 V c).before 1 t d = iblk1 V c 1 t :=
  ((dat1 V c).before_in_eq_fetched 1 rfl (fun _ => rfl) (fun _ _ _ => rfl) (kept1_1 V c) t d).trans (fetched1_1 V c t d)
theorem before1_2 (c : Dev nD) (t : Fin cfg1.N) (d) : (dat1 V c).before 2 t d = iblk1 V c 2 t :=
  ((dat1 V c).before_in_eq_fetched 2 rfl (fun _ => rfl) (fun _ _ _ => rfl) (kept1_2 V c) t d).trans (fetched1_2 V c t d)

/-! ## The body obligation -/

/-- What the pipeline hands the body at point `t`: the invariant, what the core owes, and each window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it takes back: the same at the next point, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies at those blocks; the
    invariant and what the core owes are the same at both ends and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RegionAcc.lean ====
import proofs.«128242_j35424890257839_1_alg».proof.Proof.RegionOut
import proofs.«128242_j35424890257839_1_alg».proof.Proof.Gen.KernelIdeal.Launch
import proofs.«128242_j35424890257839_1_alg».proof.Proof.Gen.KernelIdeal.Skeleton
import proofs.«128242_j35424890257839_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-
  The first kernel region: the key/value summary accumulated over the sixteen tiles of the sequence axis.
  At every grid point the body adds one tile's contribution to an accumulator kept in a scratch buffer that
  lives from point to point: at the first point the accumulator is zeroed first, at the last point it is also
  copied into the output block, which is written back there and nowhere else. This file states what the
  accumulator holds after each point, the invariant that carries it between points, and that the body meets
  the pipeline's obligation at every point. Everything is generic in the float instance.
-/

local notation "𝕄" => MT nD τ sig Unit (Elt F) ℕ (UR sig nD τ) ℕ

/-! ## The body's two conditions, in closed form over the grid -/

/-- "this is the first point": the condition under which the accumulator is zeroed. -/
abbrev condFirst (i : grid0.Coords) : Prop := (Scalar.cmpi .ne (Scalar.extui (Scalar.cmpi .eq (BitVec.ofNat 32 (i 0).val) 0#32)) 0#32) = 1#1
/-- "this is the last point": the condition under which the accumulator is copied to the output block. -/
abbrev condLast (i : grid0.Coords) : Prop := k0_cond2 i = 1#1

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 15 :=
  (by decide +kernel : ∀ t : Fin grid0.N, condLast (grid0.coords t) ↔ t.val = 15)

/-! ## Where the windows are idle: the inputs never, the output everywhere but at the last point -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3 : ∀ t : Fin cfg0.N, ¬condLast (grid0.coords t) → cfg0.idle 3 (grid0.coords t) = true := by decide +kernel
theorem noFlush0_3 : ∀ t : Fin cfg0.N, ¬condLast (grid0.coords t) → (cfg0.win 3).flush t = false := by decide +kernel
theorem live0_3 : ∀ t : Fin cfg0.N, condLast (grid0.coords t) → cfg0.idle 3 (grid0.coords t) = false := by decide +kernel

/-! ## The memrefs the pipeline calls the body with -/

abbrev ms0_0 (t : Fin cfg0.N) : Memref sig .tc .vmem S256x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x64 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev accM : Memref sig .tc .vmem S256x64 .f32 := Memref.whole cc0_scratch0

/-- The scoped buffers that are neither a staging buffer of this region nor the accumulator (the second region's
    staging buffers), each whole at some contents: they ride through the region untouched. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region's plain invariant (every scoped buffer no window stages at anything, the generator register at some
    state) with the accumulator split off as a memref owned at some contents. -/
theorem PhiA0_eq (c : Dev nD) :
    (Pipeline.ΦA spec0 c : sProp 𝕄)
      = iprop(iprop((∃ d, owns (c : Thread nD τ) accM fullShare d) ∗ otherScoped c) ∗ (∃ r, prngReg c r)) := by
  unfold Pipeline.ΦA otherScoped; rw [scopedRest0_eq]; simp only [accM, owns_whole]; try rfl

/-! ## Whole-buffer reads and writes, over variables

The body reads and writes every buffer through the full rectangle at the origin. Read through it, a buffer gives its
contents; written through it, a buffer holds what was written last, whatever it held before. -/

/-- After writes through the full rectangle, the buffer reads as the last payload written. -/
theorem read_writes_full {κ : Kind} {sp : Space} (v : View sig κ sp S256x64 .f32) (f : v.ty.Contents (Elt F))
    (p : Vec F S256x64 .f32) (L : List (View.Piece (Elt F) S256x64 .f32)) :
    v.read (Elt F) (v.writes (Elt F) f (⟨fullW, p⟩ :: L)) = p := by
  have hcov : ∀ y : S256x64.Idx, ∃ pc ∈ ((⟨fullW, p⟩ : View.Piece (Elt F) S256x64 .f32) :: L), y ∈ pc.1.set :=
    fun y => ⟨⟨fullW, p⟩, List.mem_cons.mpr (Or.inl rfl), View.mem_set_unit_zero (S := S256x64) origin2 inb_S256x64_S256x64_0_0 y⟩
  rw [View.read_writes_eq_canon v f _ hcov]
  exact View.canon_cons_unit_zero (S := S256x64) origin2 inb_S256x64_S256x64_0_0 p L

/-- A read through the full rectangle of what one write through it left is the payload written. -/
theorem readCov_full {κ : Kind} {sp : Space} (v : View sig κ sp S256x64 .f32) (p : Vec F S256x64 .f32) :
    v.readCov [(⟨fullW, p⟩ : View.Piece (Elt F) S256x64 .f32)] fullW.toLoadRect = p :=
  View.readCov_unit_zero v origin2 inb_S256x64_S256x64_0_0 p

/-- A read through the full rectangle of a whole buffer holding `x` is `x` (one statement per buffer shape). -/
theorem readAt_fullW {m : Memref sig .tc .vmem S256x64 .f32} (h : m.IsWhole) (x : Vec F S256x64 .f32) :
    View.readAt (Elt F) m.view fullW.toLoadRect (h.unread x) = x := by
  rw [View.readAt_eq_ld, h.read_unread, View.ld_unit_zero (S := S256x64) origin2 inb_S256x64_S256x64_0_0]
theorem readAt_fullQ {m : Memref sig .tc .vmem S64x4096 .f32} (h : m.IsWhole) (x : Vec F S64x4096 .f32) :
    View.readAt (Elt F) m.view fullQ.toLoadRect (h.unread x) = x := by
  rw [View.readAt_eq_ld, h.read_unread, View.ld_unit_zero (S := S64x4096) origin2 inb_S64x4096_S64x4096_0_0]
theorem readAt_fullO {m : Memref sig .tc .vmem S4096x64 .f32} (h : m.IsWhole) (x : Vec F S4096x64 .f32) :
    View.readAt (Elt F) m.view fullO.toLoadRect (h.unread x) = x := by
  rw [View.readAt_eq_ld, h.read_unread, View.ld_unit_zero (S := S4096x64) origin2 inb_S4096x64_S4096x64_0_0]

/-! ## The body, case by case, on whole memrefs -/

set_option maxHeartbeats 4000000 in
/-- At the first point: the accumulator, found at anything, is zeroed and receives the tile's contribution; the
    output buffer is handed back as found. -/
theorem run_first (c : Dev nD) (E : Set ℕ) (i : grid0.Coords)
    (arg1 : Memref sig .tc .vmem S256x64 .f32) (harg1 : arg1.IsWhole) (arg2 : Memref sig .tc .vmem S64x4096 .f32) (harg2 : arg2.IsWhole)
    (arg3 : Memref sig .tc .vmem S4096x64 .f32) (harg3 : arg3.IsWhole) (arg4 : Memref sig .tc .vmem S256x64 .f32) (harg4 : arg4.IsWhole)
    (arg5 : Memref sig .tc .vmem S256x64 .f32) (harg5 : arg5.IsWhole) (hc1 : condFirst i) (hc2 : ¬condLast i)
    (x0 : Vec F S256x64 .f32) (x1 : Vec F S64x4096 .f32) (x2 : Vec F S4096x64 .f32) (xi : Vec F S256x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (k0_pay2 x0 x1 x2 k0_pay1)) -∗ K ⟨⟩))
      ⊢ wp frame (wpE (defs₀ (F := F)) Variants.none c none) E (cc0__kv_kernel i arg1 harg1 arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%d5, %f5, %hf5, H5⟩, Hk⟩
  obtain rfl := harg1.eq_unread hf0; obtain rfl := harg2.eq_unread hf1; obtain rfl := harg3.eq_unread hf2; obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H5
  ipureintro
  sl_unfold_words
  rw [read_writes_full]
  rw [readAt_fullW harg1 x0, readAt_fullQ harg2 x1, readAt_fullO harg3 x2, readCov_full]

set_option maxHeartbeats 4000000 in
/-- At a point that is neither first nor last: the accumulator, found at `xs`, receives the tile's contribution;
    the output buffer is handed back as found. -/
theorem run_mid (c : Dev nD) (E : Set ℕ) (i : grid0.Coords)
    (arg1 : Memref sig .tc .vmem S256x64 .f32) (harg1 : arg1.IsWhole) (arg2 : Memref sig .tc .vmem S64x4096 .f32) (harg2 : arg2.IsWhole)
    (arg3 : Memref sig .tc .vmem S4096x64 .f32) (harg3 : arg3.IsWhole) (arg4 : Memref sig .tc .vmem S256x64 .f32) (harg4 : arg4.IsWhole)
    (arg5 : Memref sig .tc .vmem S256x64 .f32) (harg5 : arg5.IsWhole) (hc1 : ¬condFirst i) (hc2 : ¬condLast i)
    (x0 : Vec F S256x64 .f32) (x1 : Vec F S64x4096 .f32) (x2 : Vec F S4096x64 .f32) (xi xs : Vec F S256x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (k0_pay2 x0 x1 x2 xs)) -∗ K ⟨⟩))
      ⊢ wp frame (wpE (defs₀ (F := F)) Variants.none c none) E (cc0__kv_kernel i arg1 harg1 arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  obtain rfl := harg1.eq_unread hf0; obtain rfl := harg2.eq_unread hf1; obtain rfl := harg3.eq_unread hf2; obtain rfl := harg4.eq_unread hf3
  obtain rfl := harg5.eq_unread hf5
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H5
  ipureintro
  sl_unfold_words
  rw [read_writes_full]
  rw [readAt_fullW harg1 x0, readAt_fullQ harg2 x1, readAt_fullO harg3 x2, readAt_fullW harg5 xs]

set_option maxHeartbeats 4000000 in
/-- At the last point: the accumulator, found at `xs`, receives the tile's contribution, and the output buffer,
    found at anything, receives a copy of it. -/
theorem run_last (c : Dev nD) (E : Set ℕ) (i : grid0.Coords)
    (arg1 : Memref sig .tc .vmem S256x64 .f32) (harg1 : arg1.IsWhole) (arg2 : Memref sig .tc .vmem S64x4096 .f32) (harg2 : arg2.IsWhole)
    (arg3 : Memref sig .tc .vmem S4096x64 .f32) (harg3 : arg3.IsWhole) (arg4 : Memref sig .tc .vmem S256x64 .f32) (harg4 : arg4.IsWhole)
    (arg5 : Memref sig .tc .vmem S256x64 .f32) (harg5 : arg5.IsWhole) (hc1 : ¬condFirst i) (hc2 : condLast i)
    (x0 : Vec F S256x64 .f32) (x1 : Vec F S64x4096 .f32) (x2 : Vec F S4096x64 .f32) (xs : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2 xs) ∗ owns (c : Thread nD τ) arg5 fullShare (k0_pay2 x0 x1 x2 xs)) -∗ K ⟨⟩))
      ⊢ wp frame (wpE (defs₀ (F := F)) Variants.none c none) E (cc0__kv_kernel i arg1 harg1 arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, %hf3, H3⟩, ⟨%f5, %hf5, H5⟩, Hk⟩
  obtain rfl := harg1.eq_unread hf0; obtain rfl := harg2.eq_unread hf1; obtain rfl := harg3.eq_unread hf2
  obtain rfl := harg5.eq_unread hf5
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    rw [read_writes_full, readCov_full]
    rw [readAt_fullW harg1 x0, readAt_fullQ harg2 x1, readAt_fullO harg3 x2, readAt_fullW harg5 xs]
  iexists _; isplitr
  swap; · iexact H5
  ipureintro
  sl_unfold_words
  rw [read_writes_full]
  rw [readAt_fullW harg1 x0, readAt_fullQ harg2 x1, readAt_fullO harg3 x2, readAt_fullW harg5 xs]

/-! ## The blocks, and the accumulator point by point -/

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the accumulator holds after the body at point `n`: the zero array plus the contributions of the tiles
    `0 … n`, one added per point — the body's own sum, in the body's own order. -/
def accAt (c : Dev nD) : (n : ℕ) → n < cfg0.N → Vec F S256x64 .f32
  | 0, h => k0_pay2 (iblk0 V c 0 ⟨0, h⟩) (iblk0 V c 1 ⟨0, h⟩) (iblk0 V c 2 ⟨0, h⟩) k0_pay1
  | n + 1, h => k0_pay2 (iblk0 V c 0 ⟨n + 1, h⟩) (iblk0 V c 1 ⟨n + 1, h⟩) (iblk0 V c 2 ⟨n + 1, h⟩) (accAt c n (Nat.lt_of_succ_lt h))

/-- At the first point the accumulator is the tile's contribution added to the zero array. -/
theorem accAt_first (c : Dev nD) (t : Fin cfg0.N) (ht : t.val = 0) :
    accAt V c t.val t.isLt = k0_pay2 (iblk0 V c 0 t) (iblk0 V c 1 t) (iblk0 V c 2 t) k0_pay1 := by
  obtain ⟨n, hn⟩ := t
  cases n with
  | zero => rfl
  | succ n => exact absurd ht (Nat.succ_ne_zero n)

/-- At any later point it is the tile's contribution added to what the point before left. -/
theorem accAt_pos (c : Dev nD) (t : Fin cfg0.N) (ht : t.val ≠ 0) :
    accAt V c t.val t.isLt = k0_pay2 (iblk0 V c 0 t) (iblk0 V c 1 t) (iblk0 V c 2 t) (accAt V c (t.val - 1) (Nat.lt_of_le_of_lt (Nat.sub_le _ _) t.isLt)) := by
  obtain ⟨n, hn⟩ := t
  cases n with
  | zero => exact absurd rfl ht
  | succ n => rfl

/-! ## The invariant that carries the accumulator between points -/

/-- Before the first point: the region's plain invariant (the accumulator at anything). Before any other point: the
    accumulator at what the point before left, beside the other scoped buffers and the generator register. -/
def PhiS (c : Dev nD) : (n : ℕ) → n ≤ cfg0.N → sProp 𝕄
  | 0, _ => Pipeline.ΦA spec0 c
  | n + 1, hn => iprop(iprop(owns (c : Thread nD τ) accM fullShare (accAt V c n hn) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare (accAt V c n hn) ∗ otherScoped c) ∗ (∃ r, prngReg c r)) := rfl

theorem PhiS_pos (c : Dev nD) (n : ℕ) (h : n ≤ cfg0.N) (hz : n ≠ 0) :
    PhiS V c n h = iprop(iprop(owns (c : Thread nD τ) accM fullShare (accAt V c (n - 1) (by omega)) ∗ otherScoped c) ∗ (∃ r, prngReg c r)) := by
  cases n with
  | zero => exact absurd rfl hz
  | succ n => rfl

/-! ## The pipeline's proof data -/

/-- The proof data of the key/value pass on core `c`: the arrays as the region finds them; after the body at a point
    each input's buffer at its block and the output's at the accumulator (it is consulted at the last point only,
    the one point where the output is stored and written back); the invariant above; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = accAt V c t.val t.isLt := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

/-! ## What the body finds in the inputs' buffers

An input's blocks fill its buffer, the body leaves them in place and no point is idle for it: at every point its
current buffer holds the block there, refilled at that point or left from the point before (the projection's one
block is filled once, at the first point). -/

theorem fetched0_0 (c : Dev nD) (t : Fin cfg0.N) (d) : (dat0 V c).fetched 0 t d = iblk0 V c 0 t := by
  unfold Dat.fetched Dat.blockOf iblk0; rw [A_eq0]; try rfl
theorem fetched0_1 (c : Dev nD) (t : Fin cfg0.N) (d) : (dat0 V c).fetched 1 t d = iblk0 V c 1 t := by
  unfold Dat.fetched Dat.blockOf iblk0; rw [A_eq0]; try rfl
theorem fetched0_2 (c : Dev nD) (t : Fin cfg0.N) (d) : (dat0 V c).fetched 2 t d = iblk0 V c 2 t := by
  unfold Dat.fetched Dat.blockOf iblk0; rw [A_eq0]; try rfl

theorem kept0_0 (c : Dev nD) (t : Fin cfg0.N) :
    (cfg0.win 0).cut (cfg0.grid.coords t) ((dat0 V c).after 0 t) = (dat0 V c).blockOf 0 t := by
  rw [after0_0]; unfold Dat.blockOf iblk0; rw [A_eq0]; try rfl
theorem kept0_1 (c : Dev nD) (t : Fin cfg0.N) :
    (cfg0.win 1).cut (cfg0.grid.coords t) ((dat0 V c).after 1 t) = (dat0 V c).blockOf 1 t := by
  rw [after0_1]; unfold Dat.blockOf iblk0; rw [A_eq0]; try rfl
theorem kept0_2 (c : Dev nD) (t : Fin cfg0.N) :
    (cfg0.win 2).cut (cfg0.grid.coords t) ((dat0 V c).after 2 t) = (dat0 V c).blockOf 2 t := by
  rw [after0_2]; unfold Dat.blockOf iblk0; rw [A_eq0]; try rfl

theorem before0_0 (c : Dev nD) (t : Fin cfg0.N) (d) : (dat0 V c).before 0 t d = iblk0 V c 0 t :=
  ((dat0 V c).before_in_eq_fetched 0 rfl (fun _ => rfl) (fun _ _ _ => rfl) (kept0_0 V c) t d).trans (fetched0_0 V c t d)
theorem before0_1 (c : Dev nD) (t : Fin cfg0.N) (d) : (dat0 V c).before 1 t d = iblk0 V c 1 t :=
  ((dat0 V c).before_in_eq_fetched 1 rfl (fun _ => rfl) (fun _ _ _ => rfl) (kept0_1 V c) t d).trans (fetched0_1 V c t d)
theorem before0_2 (c : Dev nD) (t : Fin cfg0.N) (d) : (dat0 V c).before 2 t d = iblk0 V c 2 t :=
  ((dat0 V c).before_in_eq_fetched 2 rfl (fun _ => rfl) (fun _ _ _ => rfl) (kept0_2 V c) t d).trans (fetched0_2 V c t d)

/-! ## Into the invariant and out of it -/

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS, Hoth⟩, Hg⟩
  isplitl [HS Hoth]
  · isplitl [HS]
    · iexists _; iexact HS
    iexact Hoth
  iexact Hg

end Cert.KernelIdeal.Hand

end
-- ==== Proof.RegionAccBody.lean ====
/-
  The key/value pass meets the pipeline rule's obligation at every grid point: by cases on the point being the
  last, the first, or one in between (the sixteen points leave no other case), each time with the accumulator
  handed over by the carried invariant at what the point before left and taken back at this point's contents.
  Generic in the float instance.
-/
import proofs.«128242_j35424890257839_1_alg».proof.Proof.RegionAcc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation -/

/-- What the pipeline hands the body at point `t`: the invariant, what the core owes, each window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- What it takes back: the invariant at the next point and each buffer as the window's schedule says — the output's
    as found wherever the point neither stores it nor writes it back. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point. The inputs' buffers hold their blocks. At the last point the invariant hands over the
    accumulator at what the point before left, the body adds the tile and copies the sum into the output buffer. At
    any other point the output buffer goes back untouched; at the first point the accumulator arrives at anything
    and is zeroed, at a middle point it arrives at what the point before left. Each time the invariant takes the
    accumulator back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [live0_0 t], after0_0]
  rw [show (dat0 V c).leavesExact 1 t = owns (c : Thread nD τ) (ms0_1 t) fullShare ((dat0 V c).after 1 t) from by
      unfold Dat.leavesExact; rw [live0_1 t], after0_1]
  rw [show (dat0 V c).leavesExact 2 t = owns (c : Thread nD τ) (ms0_2 t) fullShare ((dat0 V c).after 2 t) from by
      unfold Dat.leavesExact; rw [live0_2 t], after0_2]
  have hN : t.val < 16 := lt_of_lt_of_eq t.isLt (show cfg0.N = 16 from N_0)
  by_cases hl : t.val = 15
  · have hc2 : condLast (grid0.coords t) := (hcondLast t).mpr hl
    have hc1 : ¬condFirst (grid0.coords t) := fun h => by have := (hcondFirst t).mp h; omega
    have hz : t.val ≠ 0 := by omega
    rw [show (dat0 V c).leavesExact 3 t = owns (c : Thread nD τ) (ms0_3 t) fullShare ((dat0 V c).after 3 t) from by
        unfold Dat.leavesExact; rw [live0_3 t hc2], after0_3]
    rw [accAt_pos V c t hz]
    rw [PhiS_castSucc V c t, PhiS_pos V c _ _ hz]
    iintro ⟨⟨⟨HS, Hoth⟩, Hg⟩, Ho, ⟨%d0, H0⟩, ⟨%d1, H1⟩, ⟨%d2, H2⟩, ⟨%d3, H3⟩⟩
    iapply (run_last c Set.univ (grid0.coords t) _ _ _ _ _ _ _ _ _ _ hc1 hc2 (iblk0 V c 0 t) (iblk0 V c 1 t) (iblk0 V c 2 t)
      (accAt V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · have hc2 : ¬condLast (grid0.coords t) := fun h => hl ((hcondLast t).mp h)
    rw [Dat.leavesExact_idle (dat0 V c) 3 t (idle0_3 t hc2) (noFlush0_3 t hc2)]
    by_cases hz : t.val = 0
    · have hc1 : condFirst (grid0.coords t) := (hcondFirst t).mpr hz
      rw [accAt_first V c t hz]
      rw [PhiS_castSucc V c t, PhiS_zero V c _ _ hz, PhiA0_eq]
      iintro ⟨⟨⟨HS, Hoth⟩, Hg⟩, Ho, ⟨%d0, H0⟩, ⟨%d1, H1⟩, ⟨%d2, H2⟩, ⟨%d3, H3⟩⟩
      iapply (run_first c Set.univ (grid0.coords t) _ _ _ _ _ _ _ _ _ _ hc1 hc2 (iblk0 V c 0 t) (iblk0 V c 1 t) (iblk0 V c 2 t)
        ((dat0 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
    · have hc1 : ¬condFirst (grid0.coords t) := fun h => hz ((hcondFirst t).mp h)
      rw [accAt_pos V c t hz]
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_mid c Set.univ (grid0.coords t) _ _ _ _ _ _ _ _ _ _ hc1 hc2 (iblk0 V c 0 t) (iblk0 V c 1 t) (iblk0 V c 2 t)
        ((dat0 V c).before 3 t d3) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.TwoRegionRun.lean ====
/-
  The run of the two-region program. @main is two kernel regions and nothing else: the key/value pass, then the output
  pass. Between two regions a core holds every unscoped buffer whole at known contents, its generator register at some
  state, and owes nothing. The contents at the three boundaries are a fold from the launch memory: a region leaves its
  windowed arrays at what its pipeline's write-backs leave (the inputs as entered) and every other buffer as entered.
  Each region is entered by splitting its arrays out of the unscoped buffers and left by putting them back at the
  exit contents. The second region's invariant is the plain one of a body that keeps nothing from point to point; the
  first region's is the carried-accumulator invariant, which is the plain one at the first point and gives the plain one
  back after the last. The launch theorem then says: every weakly fair execution terminates, and every final memory
  holds every unscoped buffer at the last boundary's contents — in particular the result buffer at what the second
  pipeline leaves, and each argument as launched.
  Everything is generic in the float instance.
-/
import proofs.«128242_j35424890257839_1_alg».proof.Proof.Gen.KernelIdeal.Launch
import proofs.«128242_j35424890257839_1_alg».proof.Proof.Gen.KernelIdeal.Skeleton
import proofs.«128242_j35424890257839_1_alg».proof.Proof.Gen.KernelIdeal.Points
import proofs.«128242_j35424890257839_1_alg».proof.Proof.RegionOut
import proofs.«128242_j35424890257839_1_alg».proof.Proof.RegionAcc
import proofs.«128242_j35424890257839_1_alg».proof.Proof.RegionAccBody
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch: what the first region is entered from. -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b
/-- Between the regions: the first region's arrays at what its pipeline leaves, every other buffer as launched. -/
def W1 (c : Dev nD) : Valuation τ sig (Elt F) :=
  Pipeline.withArrays spec0 c (W0 m ρ c) fun w => (dat0 (V0 m ρ) c).arrAt w cfg0.N
/-- The same read at the TensorCore's references (what the second region's proof data take). -/
abbrev V1 : (c : Dev nD) → (b : Ref sig .tc) → Buf (Elt F) ((c : Thread nD τ).loc b) := fun c b => W1 m ρ c b
/-- At the return: the second region's arrays at what its pipeline leaves, every other buffer as between the regions. -/
def W2 (c : Dev nD) : Valuation τ sig (Elt F) :=
  Pipeline.withArrays spec1 c (W1 m ρ c) fun w => (dat1 (V1 m ρ) c).arrAt w cfg1.N
/-- The same read at the TensorCore's references. -/
abbrev V2 : (c : Dev nD) → (b : Ref sig .tc) → Buf (Elt F) ((c : Thread nD τ).loc b) := fun c b => W2 m ρ c b

theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb

/-- At the first region's exit each of its arrays holds what the pipeline leaves, and every other buffer what it held
    at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- At the second region's exit likewise. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## What the last boundary holds: the two results, and the arguments as launched -/

/-- The result buffer ends at what the second pipeline's write-backs leave in its output window's array. -/
theorem W2_main_v1 (c : Dev nD) : W2 m ρ c (Proc.devRef .tc main_v1) = (dat1 (V1 m ρ) c).arrAt 3 cfg1.N :=
  W2_arr m ρ c 3
/-- The summary the second region reads is what the first pipeline's write-backs leave in its output window's array. -/
theorem V1_main_v0 (c : Dev nD) : V1 m ρ c main_v0 = (dat0 (V0 m ρ) c).arrAt 3 cfg0.N :=
  W1_arr m ρ c 3
/-- The first region does not stage the queries: the second region finds them as launched. -/
theorem V1_main_arg0 (c : Dev nD) : V1 m ρ c main_arg0 = m ((c : Thread nD τ).loc main_arg0) :=
  W1_of_ne m ρ c main_arg0 (by decide)
/-- The first region stages the projection matrix as an input: the second region finds it as launched. -/
theorem V1_main_arg3 (c : Dev nD) : V1 m ρ c main_arg3 = m ((c : Thread nD τ).loc main_arg3) :=
  (W1_arr m ρ c 0).trans (((dat0 (V0 m ρ) c).arrAt_in 0 rfl _).trans (A_eq0 (V0 m ρ) c 0))
/-- The keys: an input of the first region, untouched by the second. -/
theorem V1_main_arg1 (c : Dev nD) : V1 m ρ c main_arg1 = m ((c : Thread nD τ).loc main_arg1) :=
  (W1_arr m ρ c 1).trans (((dat0 (V0 m ρ) c).arrAt_in 1 rfl _).trans (A_eq0 (V0 m ρ) c 1))
/-- The values: an input of the first region, untouched by the second. -/
theorem V1_main_arg2 (c : Dev nD) : V1 m ρ c main_arg2 = m ((c : Thread nD τ).loc main_arg2) :=
  (W1_arr m ρ c 2).trans (((dat0 (V0 m ρ) c).arrAt_in 2 rfl _).trans (A_eq0 (V0 m ρ) c 2))

/-- The queries end as launched: an input of the second region. -/
theorem W2_main_arg0 (c : Dev nD) : W2 m ρ c (Proc.devRef .tc main_arg0) = m ((c : Thread nD τ).loc main_arg0) :=
  (W2_arr m ρ c 1).trans ((((dat1 (V1 m ρ) c).arrAt_in 1 rfl _).trans (A_eq1 (V1 m ρ) c 1)).trans (V1_main_arg0 m ρ c))
/-- The keys end as launched: the second region does not stage them. -/
theorem W2_main_arg1 (c : Dev nD) : W2 m ρ c (Proc.devRef .tc main_arg1) = m ((c : Thread nD τ).loc main_arg1) :=
  (W2_of_ne m ρ c main_arg1 (by decide)).trans (V1_main_arg1 m ρ c)
/-- The values end as launched: the second region does not stage them. -/
theorem W2_main_arg2 (c : Dev nD) : W2 m ρ c (Proc.devRef .tc main_arg2) = m ((c : Thread nD τ).loc main_arg2) :=
  (W2_of_ne m ρ c main_arg2 (by decide)).trans (V1_main_arg2 m ρ c)
/-- The projection matrix ends as launched: an input of both regions. -/
theorem W2_main_arg3 (c : Dev nD) : W2 m ρ c (Proc.devRef .tc main_arg3) = m ((c : Thread nD τ).loc main_arg3) :=
  (W2_arr m ρ c 0).trans ((((dat1 (V1 m ρ) c).arrAt_in 0 rfl _).trans (A_eq1 (V1 m ρ) c 0)).trans (V1_main_arg3 m ρ c))

/-! ## The proof data family and the thread state -/

/-- No pipeline has a prefetched table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
/-- The last thread state without the `owes`: every unscoped buffer at the last boundary's contents, the generator
    register at some state. -/
abbrev Tₙ (c : Dev nD) : sProp 𝕄 := iprop(StableHlo.held (c : Thread nD τ) (Pipeline.ucRefs τ sig) (W2 m ρ c) ∗ ∃ r, prngReg c r)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- THE FIRST REGION over the thread state: entered from every unscoped buffer as launched, left with its arrays at what
    the pipeline leaves. Its arrays are split out of the unscoped buffers at entry and put back at exit; the generator
    register and the scoped buffers no window stages make the plain invariant, which is the carried invariant at the
    first point, and the carried invariant after the last point gives the plain one back; nothing is owed; the kernel
    has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest spec0 c) : sProp 𝕄) ⊢ Pipeline.ΦA spec0 c := by
      unfold Pipeline.ΦA
      iintro ⟨Hp, -, Hr⟩
      isplitl [Hr]; · iexact Hr
      iexact Hp
    exact h.trans (hin0 (V0 m ρ) c)
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V0 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from the contents the first leaves, left with its arrays at what its
    pipeline leaves; its invariant is the plain one of a body that keeps nothing from point to point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two regions, and the launch -/

/-- @main's two segments in order. -/
abbrev segs : List (Pipeline.Seg (pcfgs (F := F)) adm (pdats m ρ) () defs₀ 𝒱₀ L lv) :=
  [ .region (reg0 m ρ), .region (reg1 m ρ) ]

/-- @main IS the run of the two segments. -/
theorem main_run (c : Dev nD) : main (F := F) c = Pipeline.Seg.run (segs m ρ) :=
  main_segs adm (pdats m ρ) () 𝒱₀ L lv (reg0 m ρ) (reg1 m ρ) c

set_option backward.isDefEq.respectTransparency.types false in
/-- THE RUN. From any memory with zero counters, every weakly fair execution of @main on the TensorCores terminates,
    nothing faulting, and in every final memory each core's every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h => h)

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (run_all m ρ).mono fun r h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩

end Cert.KernelIdeal.Hand

end
-- ==== Proof.RegionOutArray.lean ====
/-
  The output pass's result tiles assembled into the whole result array, at the entry contents `V` and for any float
  instance.  The result window cuts the [65536, 64] array into sixteen tiles of 4096 consecutive rows; point `t` of the
  grid writes tile `t` back, and every point writes.  So after the region the array is ONE function of its index: at
  row `l`, column `v`, the body's result for tile `l / 4096` read at row `l % 4096`, column `v` (`outArr`).  The
  arrays of the three input windows end as they were entered.
-/
import proofs.«128242_j35424890257839_1_alg».proof.Proof.RegionOut
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable {F : FTy → Type} [FloatOps F]

-- the TensorCore's buffer contents on entry to the region
variable (V : (c : Dev nD) → (b : Ref sig .tc) → Buf (Elt F) ((c : Thread nD τ).loc b))

/-! ## The whole-array function -/

/-- The grid point whose tile holds row `i 0` of the result array: the row divided by the tile height. -/
def tileOf (i : S65536x64.Idx) : Fin cfg1.N :=
  ⟨(i 0).val / 4096, by
    have h : (i 0).val < 65536 := (i 0).isLt
    show (i 0).val / 4096 < grid1.N
    rw [N_1]; omega⟩

theorem tileOf_val (i : S65536x64.Idx) : (tileOf i).val = (i 0).val / 4096 := rfl

/-- The result array after the region, index by index: the body's result for the row's tile, at the row's place
    inside the tile and the same column. -/
def outArr (c : Dev nD) : S65536x64.Idx → Elt F .f32 := fun i =>
  out1_3 (iblk1 V c 0 (tileOf i)) (iblk1 V c 1 (tileOf i)) (iblk1 V c 2 (tileOf i))
    (ix2 ⟨(i 0).val % 4096, Nat.mod_lt _ (by decide)⟩ (i 1))

/-- `outArr` at the array index that sits at place `y` of tile `t`: row `4096 t + y 0`, column `y 1`. -/
theorem outArr_at_tile (c : Dev nD) (t : Fin cfg1.N) (i : S65536x64.Idx) (y : S4096x64.Idx)
    (h0 : (i 0).val = t.val * 4096 + (y 0).val) (h1 : (i 1).val = (y 1).val) :
    outArr V c i = out1_3 (iblk1 V c 0 t) (iblk1 V c 1 t) (iblk1 V c 2 t) y := by
  have hy : (y 0).val < 4096 := (y 0).isLt
  obtain rfl : t = tileOf i := Fin.ext (by rw [tileOf_val]; omega)
  unfold outArr
  congr 1
  funext a
  apply Fin.ext
  match a with
  | ⟨0, _⟩ => show (i 0).val % 4096 = (y 0).val; rw [tileOf_val] at h0; omega
  | ⟨1, _⟩ => exact h1

/-! ## The result window's tiles -/

/-- The result window's index map over the grid: tile `t` along the rows, the one tile along the columns. -/
theorem index_out : ∀ t : Fin cfg1.N, win1_3.index t (0 : Fin 2) = t.val ∧ win1_3.index t (1 : Fin 2) = 0 :=
  (by decide +kernel : ∀ t : Fin grid1.N, win1_3.index t (0 : Fin 2) = t.val ∧ win1_3.index t (1 : Fin 2) = 0)

/-- Reading tile `t` of a whole-array function: if the function, at the array index sitting at place `y` of tile `t`
    (row `4096 t + y 0`, column `y 1`), is `R y`, then tile `t` of it is `R`. -/
theorem read_tile_out (t : Fin cfg1.N) (G : S65536x64.Idx → Elt F .f32) (R : S4096x64.Idx → Elt F .f32)
    (h : ∀ (i : S65536x64.Idx) (y : S4096x64.Idx), (i 0).val = t.val * 4096 + (y 0).val → (i 1).val = (y 1).val → G i = R y) :
    (cfg1.win 3).cut (grid1.coords t) R = ((cfg1.win 3).blk t).view.read (Elt F) G := by
  obtain ⟨e0, e1⟩ := index_out t
  funext y
  rw [View.read_apply]
  show R y = G (((cfg1.win 3).blk t).view.emb y)
  refine (h _ y ?_ ?_).symm
  · show win1_3.index t (0 : Fin 2) * 4096 + 1 * (y 0).val = t.val * 4096 + (y 0).val
    rw [e0]; omega
  · show win1_3.index t (1 : Fin 2) * 64 + 1 * (y 1).val = (y 1).val
    rw [e1]; omega

/-- What point `t` writes back is tile `t` of `outArr`. -/
theorem flushed_out_eq (c : Dev nD) (t : Fin cfg1.N) :
    (dat1 V c).flushed 3 t = ((cfg1.win 3).blk t).view.read (Elt F) (outArr V c) := by
  show (cfg1.win 3).cut (grid1.coords t) ((dat1 V c).after 3 t) = _
  rw [after1_3]
  exact read_tile_out t (outArr V c) (out1_3 (iblk1 V c 0 t) (iblk1 V c 1 t) (iblk1 V c 2 t))
    (fun i y h0 h1 => outArr_at_tile V c t i y h0 h1)

/-- An index of the result array lies in point `t`'s tile iff, on each axis, its coordinate lies in the tile's range. -/
theorem mem_tile_out (t : Fin cfg1.N) (i : S65536x64.Idx) :
    i ∈ ((cfg1.win 3).blk t).view.set ↔ ∀ a : Fin 2, win1_3.index t a * S4096x64.size a ≤ (i a).val ∧ (i a).val < win1_3.index t a * S4096x64.size a + S4096x64.size a := by
  show i ∈ ((View.whole main_v1).slice (win1_3.rect t)).set ↔ _
  rw [View.set_slice_whole, Rect.mem_set_unit]
  exact Iff.rfl

/-- Every index of the result array lies in the tile of a point that writes back: the tile of its row. -/
theorem cover_out (i : S65536x64.Idx) :
    ∃ t : Fin cfg1.N, (cfg1.win 3).flush t = true ∧ i ∈ ((cfg1.win 3).blk t).view.set := by
  have h0 : (i 0).val < 65536 := (i 0).isLt
  have h1 : (i 1).val < 64 := (i 1).isLt
  obtain ⟨e0, e1⟩ := index_out (tileOf i)
  refine ⟨tileOf i, flush1_3 (tileOf i), ?_⟩
  rw [mem_tile_out]
  intro a
  match a with
  | ⟨0, _⟩ =>
    show win1_3.index (tileOf i) (0 : Fin 2) * 4096 ≤ (i 0).val ∧ (i 0).val < win1_3.index (tileOf i) (0 : Fin 2) * 4096 + 4096
    rw [e0, tileOf_val]; omega
  | ⟨1, _⟩ =>
    show win1_3.index (tileOf i) (1 : Fin 2) * 64 ≤ (i 1).val ∧ (i 1).val < win1_3.index (tileOf i) (1 : Fin 2) * 64 + 64
    rw [e1]; omega

/-! ## The arrays after the region -/

/-- The result array after the region is `outArr`: every point writes its tile of it, and the tiles cover the array. -/
theorem final1_3 (c : Dev nD) : (dat1 V c).arrAt 3 cfg1.N = outArr V c :=
  (dat1 V c).arrAt_eq_of_cover 3 (outArr V c) (fun t _ => flushed_out_eq V c t) cover_out

/-- An input window's array is never written back: it ends as the region found it. -/
theorem final1_in (c : Dev nD) (w : Fin cfg1.W) (hw : w ≠ 3) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, h => exact absurd rfl h
  rw [(dat1 V c).arrAt_in w hin, A_eq1]

end Cert.KernelIdeal.Hand

end
-- ==== Proof.BlockReads.lean ====
/-
  The blocks of the two passes, read as entries of the whole arrays.

  Each window of a pass cuts its array into equal blocks; at grid point t the window's index map names one block,
  and the entry at coordinate y inside that block sits in the array, on every axis, at
      (block index) * (block size) + 1 * y.
  Both grids have sixteen points. The index maps are decided once over the grid: the projection matrix and the
  key/value summary are a single block, whole at every point; the keys' and the queries' tiles move along the
  second axis with the point; the values' tiles and the result's tiles move along the first axis with the point.
  From those facts a block read through its window's view at point t is the array read at the shifted index, an
  index of the result lies in the block of point t exactly when its row divided by 4096 is t, the blocks written
  back cover the result, and the summary (one block, written back at the last point) is covered by that point.
  Nothing here depends on the float instance.
-/
import proofs.«128242_j35424890257839_1_alg».proof.Proof.Gen.KernelIdeal.Launch
import proofs.«128242_j35424890257839_1_alg».proof.Proof.Gen.KernelIdeal.Points
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx

variable {F : FTy → Type} [FloatOps F]

/-! ## The grids have sixteen points -/

/-- A point of the first pass is below 16. -/
theorem lt16_0 (t : Fin cfg0.N) : t.val < 16 := lt_of_lt_of_eq t.isLt N_0

/-- A point of the second pass is below 16. -/
theorem lt16_1 (t : Fin cfg1.N) : t.val < 16 := lt_of_lt_of_eq t.isLt N_1

/-- Slot p of the tile of a point of the first pass is a position. -/
theorem pos_lt0 (t : Fin cfg0.N) (p : Fin 4096) : 4096 * t.val + p.val < 65536 := by
  have := lt16_0 t; omega

/-- Slot p of the tile of a point of the second pass is a position. -/
theorem pos_lt1 (t : Fin cfg1.N) (p : Fin 4096) : 4096 * t.val + p.val < 65536 := by
  have := lt16_1 t; omega

/-! ## The index maps, decided over the grids -/

/-- First pass, projection matrix: block (0, 0) at every point. -/
theorem idx0_0 : ∀ t : Fin cfg0.N, win0_0.index t (0 : Fin 2) = 0 ∧ win0_0.index t (1 : Fin 2) = 0 :=
  (by decide +kernel : ∀ t : Fin grid0.N, _)

/-- First pass, keys: block (0, t) at point t. -/
theorem idx0_1 : ∀ t : Fin cfg0.N, win0_1.index t (0 : Fin 2) = 0 ∧ win0_1.index t (1 : Fin 2) = t.val :=
  (by decide +kernel : ∀ t : Fin grid0.N, _)

/-- First pass, values: block (t, 0) at point t. -/
theorem idx0_2 : ∀ t : Fin cfg0.N, win0_2.index t (0 : Fin 2) = t.val ∧ win0_2.index t (1 : Fin 2) = 0 :=
  (by decide +kernel : ∀ t : Fin grid0.N, _)

/-- First pass, summary: block (0, 0) at every point. -/
theorem idx0_3 : ∀ t : Fin cfg0.N, win0_3.index t (0 : Fin 2) = 0 ∧ win0_3.index t (1 : Fin 2) = 0 :=
  (by decide +kernel : ∀ t : Fin grid0.N, _)

/-- Second pass, projection matrix: block (0, 0) at every point. -/
theorem idx1_0 : ∀ t : Fin cfg1.N, win1_0.index t (0 : Fin 2) = 0 ∧ win1_0.index t (1 : Fin 2) = 0 :=
  (by decide +kernel : ∀ t : Fin grid1.N, _)

/-- Second pass, queries: block (0, t) at point t. -/
theorem idx1_1 : ∀ t : Fin cfg1.N, win1_1.index t (0 : Fin 2) = 0 ∧ win1_1.index t (1 : Fin 2) = t.val :=
  (by decide +kernel : ∀ t : Fin grid1.N, _)

/-- Second pass, summary: block (0, 0) at every point. -/
theorem idx1_2 : ∀ t : Fin cfg1.N, win1_2.index t (0 : Fin 2) = 0 ∧ win1_2.index t (1 : Fin 2) = 0 :=
  (by decide +kernel : ∀ t : Fin grid1.N, _)

/-- Second pass, result: block (t, 0) at point t. -/
theorem idx1_3 : ∀ t : Fin cfg1.N, win1_3.index t (0 : Fin 2) = t.val ∧ win1_3.index t (1 : Fin 2) = 0 :=
  (by decide +kernel : ∀ t : Fin grid1.N, _)

/-! ## First pass: where a block's entry sits, and the block read -/

/-- The projection matrix's block is the whole matrix: entry (r, d) of the block is entry (r, d). -/
theorem emb0_0 (t : Fin cfg0.N) (r : Fin 256) (d : Fin 64) :
    ((cfg0.win 0).blk t).view.emb (ix2 r d) = (ix2 r d : S256x64.Idx) := by
  obtain ⟨e0, e1⟩ := idx0_0 t
  refine funext fun a => Fin.ext ?_
  match a with
  | ⟨0, _⟩ => show win0_0.index t (0 : Fin 2) * 256 + 1 * r.val = r.val; omega
  | ⟨1, _⟩ => show win0_0.index t (1 : Fin 2) * 64 + 1 * d.val = d.val; omega

theorem read0_0 (t : Fin cfg0.N) (A : S256x64.Idx → Elt F .f32) (r : Fin 256) (d : Fin 64) :
    ((cfg0.win 0).blk t).view.read (Elt F) A (ix2 r d) = A (ix2 r d) := by
  show A (((cfg0.win 0).blk t).view.emb (ix2 r d)) = A (ix2 r d)
  rw [emb0_0]

/-- Entry (d, p) of the keys' tile at point t is entry (d, 4096 t + p) of the keys. -/
theorem emb0_1 (t : Fin cfg0.N) (d : Fin 64) (p : Fin 4096) :
    ((cfg0.win 1).blk t).view.emb (ix2 d p) = (ix2 d ⟨4096 * t.val + p.val, pos_lt0 t p⟩ : S64x65536.Idx) := by
  obtain ⟨e0, e1⟩ := idx0_1 t
  refine funext fun a => Fin.ext ?_
  match a with
  | ⟨0, _⟩ => show win0_1.index t (0 : Fin 2) * 64 + 1 * d.val = d.val; omega
  | ⟨1, _⟩ => show win0_1.index t (1 : Fin 2) * 4096 + 1 * p.val = 4096 * t.val + p.val; omega

theorem read0_1 (t : Fin cfg0.N) (A : S64x65536.Idx → Elt F .f32) (d : Fin 64) (p : Fin 4096) :
    ((cfg0.win 1).blk t).view.read (Elt F) A (ix2 d p) = A (ix2 d ⟨4096 * t.val + p.val, pos_lt0 t p⟩) := by
  show A (((cfg0.win 1).blk t).view.emb (ix2 d p)) = A (ix2 d ⟨4096 * t.val + p.val, pos_lt0 t p⟩)
  rw [emb0_1]

/-- Entry (p, v) of the values' tile at point t is entry (4096 t + p, v) of the values. -/
theorem emb0_2 (t : Fin cfg0.N) (p : Fin 4096) (v : Fin 64) :
    ((cfg0.win 2).blk t).view.emb (ix2 p v) = (ix2 ⟨4096 * t.val + p.val, pos_lt0 t p⟩ v : S65536x64.Idx) := by
  obtain ⟨e0, e1⟩ := idx0_2 t
  refine funext fun a => Fin.ext ?_
  match a with
  | ⟨0, _⟩ => show win0_2.index t (0 : Fin 2) * 4096 + 1 * p.val = 4096 * t.val + p.val; omega
  | ⟨1, _⟩ => show win0_2.index t (1 : Fin 2) * 64 + 1 * v.val = v.val; omega

theorem read0_2 (t : Fin cfg0.N) (A : S65536x64.Idx → Elt F .f32) (p : Fin 4096) (v : Fin 64) :
    ((cfg0.win 2).blk t).view.read (Elt F) A (ix2 p v) = A (ix2 ⟨4096 * t.val + p.val, pos_lt0 t p⟩ v) := by
  show A (((cfg0.win 2).blk t).view.emb (ix2 p v)) = A (ix2 ⟨4096 * t.val + p.val, pos_lt0 t p⟩ v)
  rw [emb0_2]

/-- The summary's block is the whole summary: entry (r, c) of the block is entry (r, c). -/
theorem emb0_3 (t : Fin cfg0.N) (r : Fin 256) (c : Fin 64) :
    ((cfg0.win 3).blk t).view.emb (ix2 r c) = (ix2 r c : S256x64.Idx) := by
  obtain ⟨e0, e1⟩ := idx0_3 t
  refine funext fun a => Fin.ext ?_
  match a with
  | ⟨0, _⟩ => show win0_3.index t (0 : Fin 2) * 256 + 1 * r.val = r.val; omega
  | ⟨1, _⟩ => show win0_3.index t (1 : Fin 2) * 64 + 1 * c.val = c.val; omega

theorem read0_3 (t : Fin cfg0.N) (A : S256x64.Idx → Elt F .f32) (r : Fin 256) (c : Fin 64) :
    ((cfg0.win 3).blk t).view.read (Elt F) A (ix2 r c) = A (ix2 r c) := by
  show A (((cfg0.win 3).blk t).view.emb (ix2 r c)) = A (ix2 r c)
  rw [emb0_3]

/-! ## Second pass: where a block's entry sits, and the block read -/

/-- The projection matrix's block is the whole matrix: entry (r, d) of the block is entry (r, d). -/
theorem emb1_0 (t : Fin cfg1.N) (r : Fin 256) (d : Fin 64) :
    ((cfg1.win 0).blk t).view.emb (ix2 r d) = (ix2 r d : S256x64.Idx) := by
  obtain ⟨e0, e1⟩ := idx1_0 t
  refine funext fun a => Fin.ext ?_
  match a with
  | ⟨0, _⟩ => show win1_0.index t (0 : Fin 2) * 256 + 1 * r.val = r.val; omega
  | ⟨1, _⟩ => show win1_0.index t (1 : Fin 2) * 64 + 1 * d.val = d.val; omega

theorem read1_0 (t : Fin cfg1.N) (A : S256x64.Idx → Elt F .f32) (r : Fin 256) (d : Fin 64) :
    ((cfg1.win 0).blk t).view.read (Elt F) A (ix2 r d) = A (ix2 r d) := by
  show A (((cfg1.win 0).blk t).view.emb (ix2 r d)) = A (ix2 r d)
  rw [emb1_0]

/-- Entry (d, p) of the queries' tile at point t is entry (d, 4096 t + p) of the queries. -/
theorem emb1_1 (t : Fin cfg1.N) (d : Fin 64) (p : Fin 4096) :
    ((cfg1.win 1).blk t).view.emb (ix2 d p) = (ix2 d ⟨4096 * t.val + p.val, pos_lt1 t p⟩ : S64x65536.Idx) := by
  obtain ⟨e0, e1⟩ := idx1_1 t
  refine funext fun a => Fin.ext ?_
  match a with
  | ⟨0, _⟩ => show win1_1.index t (0 : Fin 2) * 64 + 1 * d.val = d.val; omega
  | ⟨1, _⟩ => show win1_1.index t (1 : Fin 2) * 4096 + 1 * p.val = 4096 * t.val + p.val; omega

theorem read1_1 (t : Fin cfg1.N) (A : S64x65536.Idx → Elt F .f32) (d : Fin 64) (p : Fin 4096) :
    ((cfg1.win 1).blk t).view.read (Elt F) A (ix2 d p) = A (ix2 d ⟨4096 * t.val + p.val, pos_lt1 t p⟩) := by
  show A (((cfg1.win 1).blk t).view.emb (ix2 d p)) = A (ix2 d ⟨4096 * t.val + p.val, pos_lt1 t p⟩)
  rw [emb1_1]

/-- The summary's block is the whole summary: entry (r, c) of the block is entry (r, c). -/
theorem emb1_2 (t : Fin cfg1.N) (r : Fin 256) (c : Fin 64) :
    ((cfg1.win 2).blk t).view.emb (ix2 r c) = (ix2 r c : S256x64.Idx) := by
  obtain ⟨e0, e1⟩ := idx1_2 t
  refine funext fun a => Fin.ext ?_
  match a with
  | ⟨0, _⟩ => show win1_2.index t (0 : Fin 2) * 256 + 1 * r.val = r.val; omega
  | ⟨1, _⟩ => show win1_2.index t (1 : Fin 2) * 64 + 1 * c.val = c.val; omega

theorem read1_2 (t : Fin cfg1.N) (A : S256x64.Idx → Elt F .f32) (r : Fin 256) (c : Fin 64) :
    ((cfg1.win 2).blk t).view.read (Elt F) A (ix2 r c) = A (ix2 r c) := by
  show A (((cfg1.win 2).blk t).view.emb (ix2 r c)) = A (ix2 r c)
  rw [emb1_2]

/-- Entry (p, v) of the result's tile at point t is entry (4096 t + p, v) of the result. -/
theorem emb1_3 (t : Fin cfg1.N) (p : Fin 4096) (v : Fin 64) :
    ((cfg1.win 3).blk t).view.emb (ix2 p v) = (ix2 ⟨4096 * t.val + p.val, pos_lt1 t p⟩ v : S65536x64.Idx) := by
  obtain ⟨e0, e1⟩ := idx1_3 t
  refine funext fun a => Fin.ext ?_
  match a with
  | ⟨0, _⟩ => show win1_3.index t (0 : Fin 2) * 4096 + 1 * p.val = 4096 * t.val + p.val; omega
  | ⟨1, _⟩ => show win1_3.index t (1 : Fin 2) * 64 + 1 * v.val = v.val; omega

theorem read1_3 (t : Fin cfg1.N) (A : S65536x64.Idx → Elt F .f32) (p : Fin 4096) (v : Fin 64) :
    ((cfg1.win 3).blk t).view.read (Elt F) A (ix2 p v) = A (ix2 ⟨4096 * t.val + p.val, pos_lt1 t p⟩ v) := by
  show A (((cfg1.win 3).blk t).view.emb (ix2 p v)) = A (ix2 ⟨4096 * t.val + p.val, pos_lt1 t p⟩ v)
  rw [emb1_3]

/-! ## The written-back blocks: membership and cover -/

/-- An index of the result is in the block of point t iff each coordinate is in the block's range on its axis. -/
theorem mem_blk1_3 (t : Fin cfg1.N) (i : S65536x64.Idx) :
    i ∈ ((cfg1.win 3).blk t).view.set ↔ ∀ a : Fin 2, win1_3.index t a * S4096x64.size a ≤ (i a).val
      ∧ (i a).val < win1_3.index t a * S4096x64.size a + S4096x64.size a := by
  show i ∈ ((View.whole main_v1).slice (win1_3.rect t)).set ↔ _
  rw [View.set_slice_whole, Rect.mem_set_unit]
  exact Iff.rfl

/-- Row l, column v of the result lies in the block of point t exactly when l / 4096 = t. -/
theorem mem_blk1_3_iff (t : Fin cfg1.N) (l : Fin 65536) (v : Fin 64) :
    (ix2 l v : S65536x64.Idx) ∈ ((cfg1.win 3).blk t).view.set ↔ l.val / 4096 = t.val := by
  rw [mem_blk1_3]
  obtain ⟨e0, e1⟩ := idx1_3 t
  constructor
  · intro h
    have b0 : win1_3.index t (0 : Fin 2) * 4096 ≤ l.val ∧ l.val < win1_3.index t (0 : Fin 2) * 4096 + 4096 := h 0
    omega
  · intro h a
    match a with
    | ⟨0, _⟩ =>
      show win1_3.index t (0 : Fin 2) * 4096 ≤ l.val ∧ l.val < win1_3.index t (0 : Fin 2) * 4096 + 4096
      omega
    | ⟨1, _⟩ =>
      show win1_3.index t (1 : Fin 2) * 64 ≤ v.val ∧ v.val < win1_3.index t (1 : Fin 2) * 64 + 64
      have := v.isLt
      omega

/-- Every index of the result is in the block some point writes back: the point is its row divided by 4096. -/
theorem cover1_3 (i : S65536x64.Idx) :
    ∃ t : Fin cfg1.N, (cfg1.win 3).flush t = true ∧ i ∈ ((cfg1.win 3).blk t).view.set := by
  obtain ⟨l, v, rfl⟩ : ∃ (l : Fin 65536) (v : Fin 64), i = ix2 l v := ⟨i 0, i 1, eq_ix2 i⟩
  have hN : cfg1.N = 16 := N_1
  refine ⟨⟨l.val / 4096, by rw [hN]; omega⟩, flush1_3 _, ?_⟩
  exact (mem_blk1_3_iff _ l v).mpr rfl

/-- An index of the summary is in the block of point t iff each coordinate is in the block's range on its axis. -/
theorem mem_blk0_3 (t : Fin cfg0.N) (i : S256x64.Idx) :
    i ∈ ((cfg0.win 3).blk t).view.set ↔ ∀ a : Fin 2, win0_3.index t a * S256x64.size a ≤ (i a).val
      ∧ (i a).val < win0_3.index t a * S256x64.size a + S256x64.size a := by
  show i ∈ ((View.whole main_v0).slice (win0_3.rect t)).set ↔ _
  rw [View.set_slice_whole, Rect.mem_set_unit]
  exact Iff.rfl

/-- The summary is one block: every index is in the block of every point. -/
theorem mem_blk0_3_all (t : Fin cfg0.N) (i : S256x64.Idx) : i ∈ ((cfg0.win 3).blk t).view.set := by
  rw [mem_blk0_3]
  obtain ⟨e0, e1⟩ := idx0_3 t
  intro a
  match a with
  | ⟨0, _⟩ =>
    show win0_3.index t (0 : Fin 2) * 256 ≤ (i 0).val ∧ (i 0).val < win0_3.index t (0 : Fin 2) * 256 + 256
    have hi : (i 0).val < 256 := (i 0).isLt
    omega
  | ⟨1, _⟩ =>
    show win0_3.index t (1 : Fin 2) * 64 ≤ (i 1).val ∧ (i 1).val < win0_3.index t (1 : Fin 2) * 64 + 64
    have hi : (i 1).val < 64 := (i 1).isLt
    omega

/-- The last point of the first pass. -/
def last0 : Fin cfg0.N := ⟨15, by rw [show cfg0.N = 16 from N_0]; decide⟩

/-- The summary is written back at the last point (and at no other). -/
theorem flush0_3_last : (cfg0.win 3).flush last0 = true := (flush0_3 last0).mpr rfl

/-- Every index of the summary is in the block the last point writes back. -/
theorem cover0_3 (i : S256x64.Idx) :
    ∃ t : Fin cfg0.N, (cfg0.win 3).flush t = true ∧ i ∈ ((cfg0.win 3).blk t).view.set :=
  ⟨last0, flush0_3_last, mem_blk0_3_all last0 i⟩

end Cert.KernelIdeal.Hand

end
-- ==== Proof.Spec.lean ====
/-
  What both programs compute, written once over the extended reals.

  A feature map sends a column x (64 entries) of an input matrix and a row w of the 256 x 64 projection matrix to
      feat = cNorm * exp ((cShift + cScale * <w, x>) + cNeg * <x, x>).
  The key/value summary is  kv r v = sum over all 65536 positions l of  feat(W, K) r l * V l v,
  and the result is          out l v = sum over the 256 features r of   feat(W, Q) r l * kv r v.
  The four constants are kept as the f32 words the programs print; both programs print the same words, so their
  values are never needed. Matrices are curried coordinate functions, so that a tile of an input (a function on
  Fin 4096) and the whole input (a function on Fin 65536) are fed to the same definition.
-/
import Idealize.ShloMosaic.PureOps.Ideal

noncomputable section

open scoped BigOperators

namespace Cert.Spec

open Idealize.ShloMosaic

/-- The factor of the projection <w, x>. -/
def cScale : EReal := Ideal.ofBits .f32 0x3F464BF8#32
/-- The summand added to the scaled projection. -/
def cShift : EReal := Ideal.ofBits .f32 0x3DCCCCCD#32
/-- The factor of the squared norm <x, x>. -/
def cNeg : EReal := Ideal.ofBits .f32 0xBF800000#32
/-- The factor of the exponential. -/
def cNorm : EReal := Ideal.ofBits .f32 0x3993E84C#32

/-- The feature of row `r` of the projection `W` and column `l` of `X`; it looks at column `l` of `X` only. -/
def feat {n : ℕ} (W : Fin 256 → Fin 64 → EReal) (X : Fin 64 → Fin n → EReal) (r : Fin 256) (l : Fin n) : EReal :=
  cNorm * Ideal.exp ((cShift + cScale * ∑ d : Fin 64, W r d * X d l) + cNeg * ∑ d : Fin 64, X d l * X d l)

/-- The key/value summary: the features of the keys against the values, summed over every position. -/
def kv (W : Fin 256 → Fin 64 → EReal) (K : Fin 64 → Fin 65536 → EReal) (V : Fin 65536 → Fin 64 → EReal)
    (r : Fin 256) (v : Fin 64) : EReal :=
  ∑ l : Fin 65536, feat W K r l * V l v

/-- The result: the features of the queries against the summary, summed over the features. -/
def out (W : Fin 256 → Fin 64 → EReal) (Q K : Fin 64 → Fin 65536 → EReal) (V : Fin 65536 → Fin 64 → EReal)
    (l : Fin 65536) (v : Fin 64) : EReal :=
  ∑ r : Fin 256, feat W Q r l * kv W K V r v

/-- The feature of a column depends on that column alone: a tile's feature is the whole matrix's at the tile's column. -/
theorem feat_col {n n' : ℕ} (W : Fin 256 → Fin 64 → EReal) (X : Fin 64 → Fin n → EReal) (X' : Fin 64 → Fin n' → EReal)
    (r : Fin 256) (l : Fin n) (l' : Fin n') (h : ∀ d, X d l = X' d l') : feat W X r l = feat W X' r l' := by
  unfold feat
  simp only [h]

end Cert.Spec

end
-- ==== Proof.Payloads.lean ====
/-
  The three values the two passes store, read at an index, over the extended reals.

  Both passes build the same 256 x 4096 feature tile from the 256 x 64 projection matrix W and a 64 x 4096 tile X:
      tile (r, p) = cNorm * exp ((cShift + cScale * sum_d W r d * X d p) + cNeg * sum_d X d p * X d p),
  the projection being a matrix product into the zero accumulator, the squared norm a sum over the 64 rows of X * X that
  is cast to one row and broadcast over the 256 rows. At the extended reals the narrowing format changes are the
  identity, so the tile at (r, p) is the specification's feature of row r of W and column p of X.
  The first pass stores the zero splat at its first step and, at every step, the accumulator plus the product of the
  feature tile with the 4096 x 64 value tile (a sum over the tile's 4096 positions). The second pass stores the product of
  the feature tile, transposed, with the 256 x 64 summary (a sum over the 256 features).
  Every sum is re-indexed from the product's one-axis contraction index, or the reduction's inserted coordinate, to the
  plain coordinate; no term of a sum is ever enumerated and no finiteness is used.
-/
import proofs.«128242_j35424890257839_1_alg».proof.Proof.Gen.KernelIdeal.Skeleton
import proofs.«128242_j35424890257839_1_alg».proof.Proof.Spec
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- The reduced index `p` with row `d` put back is `(d, p)`. -/
theorem lift_row {m n : Nat} (h : (⟨2, ![m, n]⟩ : Shape).Reduces [0] (⟨1, ![n]⟩ : Shape)) (p : Fin n)
    (d : Fin ((⟨2, ![m, n]⟩ : Shape).size 0)) : h.lift (ix1 p) d = ix2 (⟨d.val, d.isLt⟩ : Fin m) p := by
  funext c; apply Fin.ext
  match c with
  | ⟨0, _⟩ => rfl
  | ⟨1, _⟩ => rfl

theorem dotA_lhs0 (i : S256x4096.Idx) (q : dot_S256x64_S64x4096_S256x4096_1_0_0_1_n_n.contr.Idx) :
    (dot_S256x64_S64x4096_S256x4096_1_0_0_1_n_n.lhsIdx i q 0).val = (i 0).val := by
  unfold DotDims.lhsIdx
  rw [dif_neg (show ¬(0 : Fin S256x64.rank) ∈ dot_S256x64_S64x4096_S256x4096_1_0_0_1_n_n.lhsBatch by decide), dif_pos (show (0 : Fin S256x64.rank) ∈ dot_S256x64_S64x4096_S256x4096_1_0_0_1_n_n.lhsNonContracting by decide)]
  rfl
theorem dotA_lhs1 (i : S256x4096.Idx) (q : dot_S256x64_S64x4096_S256x4096_1_0_0_1_n_n.contr.Idx) :
    (dot_S256x64_S64x4096_S256x4096_1_0_0_1_n_n.lhsIdx i q 1).val = (q ⟨0, by decide⟩).val :=
  dot_S256x64_S64x4096_S256x4096_1_0_0_1_n_n.lhsIdx_val_of_single rfl i q
theorem dotA_rhs0 (i : S256x4096.Idx) (q : dot_S256x64_S64x4096_S256x4096_1_0_0_1_n_n.contr.Idx) :
    (dot_S256x64_S64x4096_S256x4096_1_0_0_1_n_n.rhsIdx i q 0).val = (q ⟨0, by decide⟩).val :=
  dot_S256x64_S64x4096_S256x4096_1_0_0_1_n_n.rhsIdx_val_of_single rfl i q
theorem dotA_rhs1 (i : S256x4096.Idx) (q : dot_S256x64_S64x4096_S256x4096_1_0_0_1_n_n.contr.Idx) :
    (dot_S256x64_S64x4096_S256x4096_1_0_0_1_n_n.rhsIdx i q 1).val = (i 1).val := by
  unfold DotDims.rhsIdx
  rw [dif_neg (show ¬(1 : Fin S64x4096.rank) ∈ dot_S256x64_S64x4096_S256x4096_1_0_0_1_n_n.rhsBatch by decide), dif_pos (show (1 : Fin S64x4096.rank) ∈ dot_S256x64_S64x4096_S256x4096_1_0_0_1_n_n.rhsNonContracting by decide)]
  rfl

/-- The projection: the product of the 256 x 64 matrix with a 64 x 4096 tile, read at `(r, p)`. -/
theorem proj_apply (w : FVec Ideal S256x64 .bf16) (k : FVec Ideal S64x4096 .bf16) (r : Fin 256) (p : Fin 4096) :
    matmul dot_S256x64_S64x4096_S256x4096_1_0_0_1_n_n none w k (constant (F := Ideal) S256x4096 .f32 0x00000000#32) (ix2 r p)
      = ∑ d : Fin 64, w (ix2 r d) * k (ix2 d p) := by
  refine (Ideal.matmul_constant_zero_apply dot_S256x64_S64x4096_S256x4096_1_0_0_1_n_n none w k (ix2 r p)).trans ?_
  rw [← Equiv.sum_comp (contrEquiv1 dot_S256x64_S64x4096_S256x4096_1_0_0_1_n_n 64 rfl rfl).symm]
  refine Finset.sum_congr rfl fun d _ => ?_
  have hd := contrEquiv1_symm_val dot_S256x64_S64x4096_S256x4096_1_0_0_1_n_n 64 rfl rfl d
  have el : dot_S256x64_S64x4096_S256x4096_1_0_0_1_n_n.lhsIdx (ix2 r p) ((contrEquiv1 dot_S256x64_S64x4096_S256x4096_1_0_0_1_n_n 64 rfl rfl).symm d) = ix2 r d :=
    funext fun a => Fin.ext (by
      match a with
      | ⟨0, _⟩ => exact dotA_lhs0 _ _
      | ⟨1, _⟩ => exact (dotA_lhs1 _ _).trans hd)
  have er : dot_S256x64_S64x4096_S256x4096_1_0_0_1_n_n.rhsIdx (ix2 r p) ((contrEquiv1 dot_S256x64_S64x4096_S256x4096_1_0_0_1_n_n 64 rfl rfl).symm d) = ix2 d p :=
    funext fun a => Fin.ext (by
      match a with
      | ⟨0, _⟩ => exact (dotA_rhs0 _ _).trans hd
      | ⟨1, _⟩ => exact dotA_rhs1 _ _)
  rw [el, er]

/-- The squared norm of column `p` of a tile: the lane sum over the 64 rows. -/
theorem sqnorm_apply (k : FVec Ideal S64x4096 .f32) (p : Fin 4096) :
    multiReduction (F := Ideal) .add [0] S4096 (mulf k k) 0x00000000#32 reduces_S64x4096_S4096 (.inl rfl) rfl (ix1 p)
      = ∑ d : Fin 64, k (ix2 d p) * k (ix2 d p) := by
  refine (Ideal.multiReduction_add_single (mulf k k) 0x00000000#32 reduces_S64x4096_S4096 (.inl rfl) rfl (ix1 p)).trans ?_
  refine Finset.sum_congr rfl fun d _ => ?_
  rw [lift_row reduces_S64x4096_S4096 p d]
  rfl

/-- The exponential at an index is the extended reals' exponential of the element. -/
theorem exp_apply {s : Shape} {φ : FTy} (a : FVec Ideal s φ) (i : s.Idx) : exp a i = Ideal.exp (a i) := rfl

/-- The feature tile as both passes compute it: the scaled, shifted projection minus the squared norm of the column,
    exponentiated and scaled. -/
def featTile (w : Vec Ideal S256x64 .f32) (k : Vec Ideal S64x4096 .f32) : FVec Ideal S256x4096 .f32 :=
  mulf (broadcast S256x4096 (Scalar.ofBits .f32 0x3993E84C#32))
    (exp (addf
      (addf (broadcast S256x4096 (Scalar.ofBits .f32 0x3DCCCCCD#32))
        (mulf (broadcast S256x4096 (Scalar.ofBits .f32 0x3F464BF8#32))
          (matmul dot_S256x64_S64x4096_S256x4096_1_0_0_1_n_n none (truncf .bf16 w bitsLt_bf16_f32) (truncf .bf16 k bitsLt_bf16_f32)
            (constant S256x4096 .f32 0x00000000#32))))
      (broadcastTo S256x4096
        (mulf (broadcast S1x4096 (Scalar.ofBits .f32 0xBF800000#32))
          (shapeCast S1x4096 (multiReduction .add [0] S4096 (mulf k k) 0x00000000#32 reduces_S64x4096_S4096 (.inl rfl) rfl)
            shapeCasts_S4096_S1x4096))
        broadcasts_S1x4096_S256x4096)))

/-- The feature tile read at `(r, p)` is the specification's feature of row `r` and column `p`. -/
theorem featTile_apply (w : Vec Ideal S256x64 .f32) (k : Vec Ideal S64x4096 .f32) (r : Fin 256) (p : Fin 4096) :
    featTile w k (ix2 r p) = Cert.Spec.feat (fun r d => w (ix2 r d)) (fun d p => k (ix2 d p)) r p := by
  have hM := proj_apply (truncf .bf16 w bitsLt_bf16_f32) (truncf .bf16 k bitsLt_bf16_f32) r p
  have hB : broadcastTo S256x4096
        (mulf (broadcast S1x4096 (Scalar.ofBits (F := Ideal) .f32 0xBF800000#32))
          (shapeCast S1x4096 (multiReduction (F := Ideal) .add [0] S4096 (mulf k k) 0x00000000#32 reduces_S64x4096_S4096 (.inl rfl) rfl)
            shapeCasts_S4096_S1x4096))
        broadcasts_S1x4096_S256x4096 (ix2 r p)
      = Ideal.ofBits .f32 0xBF800000#32 * ∑ d : Fin 64, k (ix2 d p) * k (ix2 d p) := by
    refine (broadcastTo_1b_ab_apply _ broadcasts_S1x4096_S256x4096 r p).trans ?_
    refine congrArg (Ideal.ofBits .f32 0xBF800000#32 * ·) ?_
    exact (shapeCast_a_1a_apply _ shapeCasts_S4096_S1x4096 (0 : Fin 1) p).trans (sqnorm_apply k p)
  unfold featTile Cert.Spec.feat Cert.Spec.cNorm Cert.Spec.cShift Cert.Spec.cScale Cert.Spec.cNeg
  simp only [mulf_apply, addf_apply, broadcast_apply, exp_apply]
  rw [hM, hB]
  rfl

theorem dotB_lhs0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem dotB_lhs1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem dotB_rhs0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem dotB_rhs1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- The accumulated product: the 256 x 4096 feature tile against the 4096 x 64 value tile, read at `(r, c)`. -/
theorem accum_apply (f : FVec Ideal S256x4096 .bf16) (v : FVec Ideal S4096x64 .bf16) (r : Fin 256) (c : Fin 64) :
    matmul dot_S256x4096_S4096x64_S256x64_1_0_0_1_n_n none f v (constant (F := Ideal) S256x64 .f32 0x00000000#32) (ix2 r c)
      = ∑ p : Fin 4096, f (ix2 r p) * v (ix2 p c) := by
  refine (Ideal.matmul_constant_zero_apply dot_S256x4096_S4096x64_S256x64_1_0_0_1_n_n none f v (ix2 r c)).trans ?_
  rw [← Equiv.sum_comp (contrEquiv1 dot_S256x4096_S4096x64_S256x64_1_0_0_1_n_n 4096 rfl rfl).symm]
  refine Finset.sum_congr rfl fun d _ => ?_
  have hd := contrEquiv1_symm_val dot_S256x4096_S4096x64_S256x64_1_0_0_1_n_n 4096 rfl rfl d
  have el : dot_S256x4096_S4096x64_S256x64_1_0_0_1_n_n.lhsIdx (ix2 r c) ((contrEquiv1 dot_S256x4096_S4096x64_S256x64_1_0_0_1_n_n 4096 rfl rfl).symm d) = ix2 r d :=
    funext fun a => Fin.ext (by
      match a with
      | ⟨0, _⟩ => exact dotB_lhs0 _ _
      | ⟨1, _⟩ => exact (dotB_lhs1 _ _).trans hd)
  have er : dot_S256x4096_S4096x64_S256x64_1_0_0_1_n_n.rhsIdx (ix2 r c) ((contrEquiv1 dot_S256x4096_S4096x64_S256x64_1_0_0_1_n_n 4096 rfl rfl).symm d) = ix2 d c :=
    funext fun a => Fin.ext (by
      match a with
      | ⟨0, _⟩ => exact (dotB_rhs0 _ _).trans hd
      | ⟨1, _⟩ => exact dotB_rhs1 _ _)
  rw [el, er]

theorem dotC_lhs0 (i : S4096x64.Idx) (q : dot_S256x4096_S256x64_S4096x64_0_0_1_1_n_n.contr.Idx) :
    (dot_S256x4096_S256x64_S4096x64_0_0_1_1_n_n.lhsIdx i q 0).val = (q ⟨0, by decide⟩).val :=
  dot_S256x4096_S256x64_S4096x64_0_0_1_1_n_n.lhsIdx_val_of_single rfl i q
theorem dotC_lhs1 (i : S4096x64.Idx) (q : dot_S256x4096_S256x64_S4096x64_0_0_1_1_n_n.contr.Idx) :
    (dot_S256x4096_S256x64_S4096x64_0_0_1_1_n_n.lhsIdx i q 1).val = (i 0).val := by
  unfold DotDims.lhsIdx
  rw [dif_neg (show ¬(1 : Fin S256x4096.rank) ∈ dot_S256x4096_S256x64_S4096x64_0_0_1_1_n_n.lhsBatch by decide), dif_pos (show (1 : Fin S256x4096.rank) ∈ dot_S256x4096_S256x64_S4096x64_0_0_1_1_n_n.lhsNonContracting by decide)]
  rfl
theorem dotC_rhs0 (i : S4096x64.Idx) (q : dot_S256x4096_S256x64_S4096x64_0_0_1_1_n_n.contr.Idx) :
    (dot_S256x4096_S256x64_S4096x64_0_0_1_1_n_n.rhsIdx i q 0).val = (q ⟨0, by decide⟩).val :=
  dot_S256x4096_S256x64_S4096x64_0_0_1_1_n_n.rhsIdx_val_of_single rfl i q
theorem dotC_rhs1 (i : S4096x64.Idx) (q : dot_S256x4096_S256x64_S4096x64_0_0_1_1_n_n.contr.Idx) :
    (dot_S256x4096_S256x64_S4096x64_0_0_1_1_n_n.rhsIdx i q 1).val = (i 1).val := by
  unfold DotDims.rhsIdx
  rw [dif_neg (show ¬(1 : Fin S256x64.rank) ∈ dot_S256x4096_S256x64_S4096x64_0_0_1_1_n_n.rhsBatch by decide), dif_pos (show (1 : Fin S256x64.rank) ∈ dot_S256x4096_S256x64_S4096x64_0_0_1_1_n_n.rhsNonContracting by decide)]
  rfl

/-- The product with the left operand transposed: both operands are contracted along their 256 rows, so the entry
    `(p, c)` pairs column `p` of the feature tile with column `c` of the summary. -/
theorem outprod_apply (f : FVec Ideal S256x4096 .bf16) (s : FVec Ideal S256x64 .bf16) (p : Fin 4096) (c : Fin 64) :
    matmul dot_S256x4096_S256x64_S4096x64_0_0_1_1_n_n none f s (constant (F := Ideal) S4096x64 .f32 0x00000000#32) (ix2 p c)
      = ∑ r : Fin 256, f (ix2 r p) * s (ix2 r c) := by
  refine (Ideal.matmul_constant_zero_apply dot_S256x4096_S256x64_S4096x64_0_0_1_1_n_n none f s (ix2 p c)).trans ?_
  rw [← Equiv.sum_comp (contrEquiv1 dot_S256x4096_S256x64_S4096x64_0_0_1_1_n_n 256 rfl rfl).symm]
  refine Finset.sum_congr rfl fun d _ => ?_
  have hd := contrEquiv1_symm_val dot_S256x4096_S256x64_S4096x64_0_0_1_1_n_n 256 rfl rfl d
  have el : dot_S256x4096_S256x64_S4096x64_0_0_1_1_n_n.lhsIdx (ix2 p c) ((contrEquiv1 dot_S256x4096_S256x64_S4096x64_0_0_1_1_n_n 256 rfl rfl).symm d) = ix2 d p :=
    funext fun a => Fin.ext (by
      match a with
      | ⟨0, _⟩ => exact (dotC_lhs0 _ _).trans hd
      | ⟨1, _⟩ => exact dotC_lhs1 _ _)
  have er : dot_S256x4096_S256x64_S4096x64_0_0_1_1_n_n.rhsIdx (ix2 p c) ((contrEquiv1 dot_S256x4096_S256x64_S4096x64_0_0_1_1_n_n 256 rfl rfl).symm d) = ix2 d c :=
    funext fun a => Fin.ext (by
      match a with
      | ⟨0, _⟩ => exact (dotC_rhs0 _ _).trans hd
      | ⟨1, _⟩ => exact dotC_rhs1 _ _)
  rw [el, er]

/-! ## The three stored values -/

/-- The value the first pass stores at its first step: the zero splat. -/
theorem pay_zero (r : Fin 256) (c : Fin 64) : k0_pay1 (F := Ideal) (ix2 r c) = 0 := by
  show shapeCast S256x64 (broadcast S256x64 (Scalar.ofBits (F := Ideal) .f32 0x00000000#32)) shapeCasts_S256x64_S256x64 (ix2 r c) = 0
  rw [shapeCast_self]
  exact Ideal.ofBits_zero_f32

/-- The first pass's stored value as the accumulator plus the product of the feature tile with the value tile. -/
theorem k0_pay2_eq (w : Vec Ideal S256x64 .f32) (k : Vec Ideal S64x4096 .f32) (v : Vec Ideal S4096x64 .f32) (acc : Vec Ideal S256x64 .f32) :
    k0_pay2 (F := Ideal) w k v acc
      = shapeCast S256x64 (addf acc (matmul dot_S256x4096_S4096x64_S256x64_1_0_0_1_n_n none
          (truncf .bf16 (featTile w k) bitsLt_bf16_f32) (truncf .bf16 v bitsLt_bf16_f32) (constant S256x64 .f32 0x00000000#32)))
          shapeCasts_S256x64_S256x64 := rfl

/-- The value the first pass stores at every step: the accumulator plus, over the tile's 4096 positions, the key
    feature times the value. -/
theorem pay_acc (w : Vec Ideal S256x64 .f32) (k : Vec Ideal S64x4096 .f32) (v : Vec Ideal S4096x64 .f32) (acc : Vec Ideal S256x64 .f32)
    (r : Fin 256) (c : Fin 64) :
    k0_pay2 (F := Ideal) w k v acc (ix2 r c)
      = acc (ix2 r c) + ∑ p : Fin 4096, Cert.Spec.feat (fun r d => w (ix2 r d)) (fun d p => k (ix2 d p)) r p * v (ix2 p c) := by
  rw [k0_pay2_eq, shapeCast_self, addf_apply, accum_apply]
  refine congrArg (acc (ix2 r c) + ·) (Finset.sum_congr rfl fun p _ => ?_)
  rw [truncf_apply, truncf_apply, featTile_apply]

/-- The second pass's stored value as the product, transposed on the left, of the feature tile with the summary. -/
theorem k1_pay1_eq (w : Vec Ideal S256x64 .f32) (q : Vec Ideal S64x4096 .f32) (kv : Vec Ideal S256x64 .f32) :
    k1_pay1 (F := Ideal) w q kv
      = matmul dot_S256x4096_S256x64_S4096x64_0_0_1_1_n_n none (truncf .bf16 (featTile w q) bitsLt_bf16_f32)
          (truncf .bf16 (shapeCast S256x64 kv shapeCasts_S256x64_S256x64) bitsLt_bf16_f32) (constant S4096x64 .f32 0x00000000#32) := rfl

/-- The value the second pass stores: over the 256 features, the query feature times the summary. -/
theorem pay_out (w : Vec Ideal S256x64 .f32) (q : Vec Ideal S64x4096 .f32) (kv : Vec Ideal S256x64 .f32) (p : Fin 4096) (c : Fin 64) :
    k1_pay1 (F := Ideal) w q kv (ix2 p c)
      = ∑ r : Fin 256, Cert.Spec.feat (fun r d => w (ix2 r d)) (fun d p => q (ix2 d p)) r p * kv (ix2 r c) := by
  rw [k1_pay1_eq, outprod_apply]
  refine Finset.sum_congr rfl fun r _ => ?_
  rw [truncf_apply, truncf_apply, featTile_apply, shapeCast_self]

end Cert.KernelIdeal.Pay

end
-- ==== Proof.OutValue.lean ====
/-
  The result array of the output pass over the extended reals, as one formula of the arrays the pass is entered with.

  The pass cuts the 65536 result rows into sixteen tiles of 4096.  Row `l` lies in tile `t = l / 4096` at inner row
  `p = l % 4096`.  There the body leaves, at column `v`,
      sum over the 256 features r of  feat(W-block, Q-tile) r p * summary-block (r, v),
  where the projection matrix's block and the summary's block are the whole matrices at every point, and entry
  `(d, p)` of the query tile of point `t` is entry `(d, 4096 t + p) = (d, l)` of the queries.  A feature looks at
  one column of its second argument only, so the tile's feature at column `p` is the whole query matrix's feature at
  column `l`:
      result (l, v) = sum over r of  feat(W, Q) r l * summary (r, v).
-/
import proofs.«128242_j35424890257839_1_alg».proof.Proof.RegionOutArray
import proofs.«128242_j35424890257839_1_alg».proof.Proof.BlockReads
import proofs.«128242_j35424890257839_1_alg».proof.Proof.Payloads
import proofs.«128242_j35424890257839_1_alg».proof.Proof.Spec

noncomputable section

open scoped BigOperators

namespace Cert.KernelIdeal.Val

open Idealize.ShloMosaic Idealize.ShloMosaic.TcCoe Idealize.SL.Sem
open Idealize.ShloMosaic.ValueIdx
open Cert.KernelIdeal Cert.KernelIdeal.Gen Cert.KernelIdeal.Hand

-- the TensorCore's buffer contents on entry to the output pass
variable (V : (c : Dev nD) → (b : Ref sig .tc) → Buf (Elt Ideal) ((c : Thread nD τ).loc b))

/-! ## The body's result at a place of a tile, for any three input blocks -/

/-- What the body leaves at inner row `p`, column `v` of the result tile, from input blocks `x0 x1 x2`. -/
theorem out_tile_apply (x0 : Vec Ideal S256x64 .f32) (x1 : Vec Ideal S64x4096 .f32) (x2 : Vec Ideal S256x64 .f32)
    (p : Fin 4096) (v : Fin 64) :
    out1_3 (F := Ideal) x0 x1 x2 (ix2 p v)
      = ∑ r : Fin 256, Cert.Spec.feat (fun r d => x0 (ix2 r d)) (fun d p => x1 (ix2 d p)) r p * x2 (ix2 r v) := by
  rw [out1_3_eq]
  exact Cert.KernelIdeal.Pay.pay_out x0 x1 x2 p v

/-- Two features agree when the projection rows agree and the two columns looked at agree. -/
theorem feat_congr {n n' : ℕ} (W W' : Fin 256 → Fin 64 → EReal) (X : Fin 64 → Fin n → EReal) (X' : Fin 64 → Fin n' → EReal)
    (r : Fin 256) (l : Fin n) (l' : Fin n') (hW : ∀ d, W r d = W' r d) (hX : ∀ d, X d l = X' d l') :
    Cert.Spec.feat W X r l = Cert.Spec.feat W' X' r l' := by
  unfold Cert.Spec.feat
  simp only [hW, hX]

/-! ## The three input blocks as entries of the arrays -/

/-- The projection matrix's block at any point is the matrix. -/
theorem blk_proj (c : Dev nD) (t : Fin cfg1.N) (r : Fin 256) (d : Fin 64) :
    iblk1 V c 0 t (ix2 r d) = V c main_arg3 (ix2 r d) :=
  read1_0 t (V c main_arg3) r d

/-- Entry `(d, p)` of the query tile at point `t` is entry `(d, 4096 t + p)` of the queries. -/
theorem blk_query (c : Dev nD) (t : Fin cfg1.N) (d : Fin 64) (p : Fin 4096) :
    iblk1 V c 1 t (ix2 d p) = V c main_arg0 (ix2 d ⟨4096 * t.val + p.val, pos_lt1 t p⟩) :=
  read1_1 t (V c main_arg0) d p

/-- The summary's block at any point is the summary. -/
theorem blk_summary (c : Dev nD) (t : Fin cfg1.N) (r : Fin 256) (v : Fin 64) :
    iblk1 V c 2 t (ix2 r v) = V c main_v0 (ix2 r v) :=
  read1_2 t (V c main_v0) r v

/-! ## The result array -/

/-- The result at row `l = 4096 t + p`, column `v`. -/
theorem outArr_ideal_at (c : Dev nD) (t : Fin cfg1.N) (p : Fin 4096) (l : Fin 65536) (v : Fin 64)
    (h : l.val = t.val * 4096 + p.val) :
    outArr (F := Ideal) V c (ix2 l v)
      = ∑ r : Fin 256, Cert.Spec.feat (fun r d => V c main_arg3 (ix2 r d)) (fun d l => V c main_arg0 (ix2 d l)) r l
          * V c main_v0 (ix2 r v) := by
  refine (outArr_at_tile V c t (ix2 l v) (ix2 p v) h rfl).trans ?_
  refine (out_tile_apply (iblk1 V c 0 t) (iblk1 V c 1 t) (iblk1 V c 2 t) p v).trans ?_
  refine Finset.sum_congr rfl fun r _ => ?_
  refine congrArg₂ (· * ·) ?_ (blk_summary V c t r v)
  refine feat_congr _ _ _ _ r p l (fun d => blk_proj V c t r d) (fun d => ?_)
  refine (blk_query V c t d p).trans ?_
  have e : (⟨4096 * t.val + p.val, pos_lt1 t p⟩ : Fin 65536) = l := Fin.ext (by show 4096 * t.val + p.val = l.val; omega)
  rw [e]

/-- THE RESULT ARRAY of the output pass: at row `l`, column `v`, the features of the queries at position `l` against
    the summary the pass was entered with, summed over the 256 features. -/
theorem outArr_ideal (c : Dev nD) (l : Fin 65536) (v : Fin 64) :
    outArr (F := Ideal) V c (ix2 l v)
      = ∑ r : Fin 256, Cert.Spec.feat (fun r d => V c main_arg3 (ix2 r d)) (fun d l => V c main_arg0 (ix2 d l)) r l
          * V c main_v0 (ix2 r v) := by
  have hl : l.val < 65536 := l.isLt
  have hN : cfg1.N = 16 := N_1
  exact outArr_ideal_at V c ⟨l.val / 4096, by rw [hN]; omega⟩ ⟨l.val % 4096, Nat.mod_lt _ (by decide)⟩ l v
    (by show l.val = l.val / 4096 * 4096 + l.val % 4096; omega)

end Cert.KernelIdeal.Val

end
-- ==== Proof.RegionAccArray.lean ====
/-
  The key/value pass's arrays after the region, at the entry contents and for any float instance.

  The summary's window has a single block, the whole [256, 64] array, and the pipeline writes it back at the last
  grid point only. What that point writes is what the accumulator holds after it, and a block that is the whole
  array, read through its window's view, is the array itself. So after the region the summary array is the
  accumulator after the last point. The arrays of the three input windows are never written: they end as the
  region found them.
-/
import proofs.«128242_j35424890257839_1_alg».proof.Proof.RegionAcc
import proofs.«128242_j35424890257839_1_alg».proof.Proof.BlockReads
import Idealize.ShloMosaic.Lib.Pipeline.Value
import Idealize.ShloMosaic.Lib.ValueIdx

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable {F : FTy → Type} [FloatOps F]

-- the TensorCore's buffer contents on entry to the region
variable (V : (c : Dev nD) → (b : Ref sig .tc) → Buf (Elt F) ((c : Thread nD τ).loc b))

/-! ## The accumulator does not depend on how its point is written -/

/-- The accumulator after point n, at two spellings of n. -/
theorem accAt_congr (c : Dev nD) (n n' : ℕ) (h : n < cfg0.N) (h' : n' < cfg0.N) (e : n = n') :
    accAt V c n h = accAt V c n' h' := by
  subst e; rfl

/-! ## The summary's one block -/

/-- Reading the one block of a whole-array function: the block, cut to what the transfer moves, is the function. -/
theorem read_whole_sum (t : Fin cfg0.N) (G R : S256x64.Idx → Elt F .f32) (h : ∀ i, G i = R i) :
    (cfg0.win 3).cut (grid0.coords t) R = ((cfg0.win 3).blk t).view.read (Elt F) G := by
  funext y
  obtain ⟨r, c', rfl⟩ : ∃ (r : Fin 256) (c' : Fin 64), y = ix2 r c' := ⟨y 0, y 1, eq_ix2 y⟩
  rw [read0_3 t G r c']
  exact (h (ix2 r c')).symm

/-- What a point that writes back writes is the one block of the accumulator after the last point: such a point
    is the last one. -/
theorem flushed_sum_eq (c : Dev nD) (t : Fin cfg0.N) (hf : (cfg0.win 3).flush t = true) :
    (dat0 V c).flushed 3 t
      = ((cfg0.win 3).blk t).view.read (Elt F) (accAt V c 15 (by have : cfg0.N = 16 := N_0; omega)) := by
  have ht : t.val = 15 := by
    have h1 := (flush0_3 t).mp hf
    have h2 := lt16_0 t
    omega
  show (cfg0.win 3).cut (grid0.coords t) ((dat0 V c).after 3 t) = _
  rw [after0_3]
  exact read_whole_sum t (accAt V c 15 (by have : cfg0.N = 16 := N_0; omega)) (accAt V c t.val t.isLt)
    (fun i => congrFun (accAt_congr V c 15 t.val _ t.isLt ht.symm) i)

/-! ## The arrays after the region -/

/-- The summary array after the region is the accumulator after the last point. -/
theorem final0_3 (c : Dev nD) :
    (dat0 V c).arrAt 3 cfg0.N = accAt V c 15 (by have : cfg0.N = 16 := N_0; omega) :=
  (dat0 V c).arrAt_eq_of_cover 3 (accAt V c 15 (by have : cfg0.N = 16 := N_0; omega))
    (fun t hf => flushed_sum_eq V c t hf) cover0_3

/-- An input window's array is never written back: it ends as the region found it. -/
theorem final0_in (c : Dev nD) (w : Fin cfg0.W) (hw : w ≠ 3) :
    (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, h => exact absurd rfl h
  rw [(dat0 V c).arrAt_in w hin, A_eq0]

end Cert.KernelIdeal.Hand

end
-- ==== Proof.Tiles.lean ====
/-
  Sixteen tiles of 4096 positions.

  The 65536 positions are cut into 16 consecutive tiles of 4096: slot p of tile t is position 4096 * t + p.
  A sum over all positions is the sum over the tiles of the sums over their slots (the pairs (t, p) are in
  bijection with the positions, and a finite sum in a commutative additive monoid does not depend on the
  enumeration). Applied to the key/value summary, whose summand at a position looks at that column of the keys
  only, this writes the summary as a sum of sixteen tile contributions, each computed from the tile's own
  columns. Finally, an accumulator that starts at zero and adds one tile's contribution at a time ends at the
  sum of all sixteen. Nothing here uses more of the extended reals than that their addition is commutative
  and associative with neutral element zero.
-/
import Mathlib.Algebra.BigOperators.Fin
import Mathlib.Data.Fintype.BigOperators
import Mathlib.Logic.Equiv.Fin.Basic
import Idealize.ShloMosaic.PureOps.Ideal
import proofs.«128242_j35424890257839_1_alg».proof.Proof.Spec

noncomputable section

open scoped BigOperators

namespace Cert.Tiles

/-- The position of slot p of tile t. -/
def pos (t : Fin 16) (p : Fin 4096) : Fin 65536 := ⟨4096 * t.val + p.val, by omega⟩

/-- A sum over the 65536 positions is the sum over the 16 tiles of the sums over their 4096 slots:
    the pairs (tile, slot) enumerate the positions exactly once. -/
theorem sum_tiles {M : Type*} [AddCommMonoid M] (f : Fin 65536 → M) :
    ∑ l : Fin 65536, f l = ∑ t : Fin 16, ∑ p : Fin 4096, f (pos t p) := by
  rw [← Fintype.sum_prod_type' (fun t p => f (pos t p))]
  refine (Fintype.sum_equiv (finProdFinEquiv : Fin 16 × Fin 4096 ≃ Fin (16 * 4096))
    (fun x : Fin 16 × Fin 4096 => f (pos x.1 x.2)) f ?_).symm
  rintro ⟨t, p⟩
  exact congrArg f (Fin.ext (Nat.add_comm _ _))

/-- The key/value summary as a sum of tile contributions, each computed from the tile's own columns of the keys
    and its own rows of the values. -/
theorem kv_tiles (W : Fin 256 → Fin 64 → EReal) (K : Fin 64 → Fin 65536 → EReal) (V : Fin 65536 → Fin 64 → EReal)
    (r : Fin 256) (c : Fin 64) :
    Cert.Spec.kv W K V r c
      = ∑ t : Fin 16, ∑ p : Fin 4096, Cert.Spec.feat W (fun d p' => K d (pos t p')) r p * V (pos t p) c := by
  unfold Cert.Spec.kv
  refine (sum_tiles (fun l => Cert.Spec.feat W K r l * V l c)).trans ?_
  refine Finset.sum_congr rfl fun t _ => Finset.sum_congr rfl fun p _ => ?_
  exact congrArg (· * V (pos t p) c)
    (Cert.Spec.feat_col W K (fun d p' => K d (pos t p')) r (pos t p) p (fun _ => rfl))

/-- The running sum: an accumulator that starts from zero plus the first tile's contribution and adds the next
    tile's contribution at every step holds, after the last step, the sum of all sixteen contributions. -/
theorem fold_tiles {M : Type*} [AddCommMonoid M] (g : Fin 16 → M) (a : ℕ → M) (h0 : a 0 = 0 + g 0)
    (hs : ∀ n (h : n + 1 < 16), a (n + 1) = a n + g ⟨n + 1, h⟩) : a 15 = ∑ t : Fin 16, g t := by
  -- after step n the accumulator holds the contributions of the tiles 0, …, n
  have key : ∀ n (h : n < 16), a n = ∑ t : Fin (n + 1), g ⟨t.val, by omega⟩ := by
    intro n
    induction n with
    | zero =>
      intro h
      rw [h0, zero_add]
      exact (Fin.sum_univ_one (fun t : Fin 1 => g ⟨t.val, by omega⟩)).symm
    | succ n ih =>
      intro h
      rw [hs n h, ih (by omega)]
      exact (Fin.sum_univ_castSucc (fun t : Fin (n + 1 + 1) => g ⟨t.val, by omega⟩)).symm
  exact key 15 (by omega)

end Cert.Tiles

end
-- ==== Proof.KvValue.lean ====
/-
  The accumulator of the key/value pass, after the last grid point, is the specification's key/value summary.

  At point t the body adds to the accumulator, entry by entry, the sum over the 4096 slots of tile t of the key
  feature times the value; the projection matrix's block is the whole matrix, the keys' block is columns
  4096 t … 4096 t + 4095 of the keys, the values' block rows 4096 t … 4096 t + 4095 of the values. At the first
  point the accumulator starts from the zero array. So entry (r, v) of the accumulator after point n is the sum
  of the contributions of the tiles 0 … n, and after the last point it is the sum over all sixteen tiles, which
  is the sum over all 65536 positions: the specification's summary. Only commutativity and associativity of
  the extended reals' addition are used.
-/
import proofs.«128242_j35424890257839_1_alg».proof.Proof.RegionAcc
import proofs.«128242_j35424890257839_1_alg».proof.Proof.BlockReads
import proofs.«128242_j35424890257839_1_alg».proof.Proof.Tiles
import proofs.«128242_j35424890257839_1_alg».proof.Proof.Payloads
import proofs.«128242_j35424890257839_1_alg».proof.Proof.Spec

noncomputable section

open scoped BigOperators

namespace Cert.KernelIdeal.Val

open Idealize.ShloMosaic Idealize.ShloMosaic.TcCoe Idealize.SL.Sem
open Idealize.ShloMosaic.ValueIdx
open Cert.KernelIdeal Cert.KernelIdeal.Gen Cert.KernelIdeal.Hand
open Cert.Tiles (pos)

-- the TensorCore's buffer contents on entry to the region, over the extended reals
variable (V : (c : Dev nD) → (b : Ref sig .tc) → Buf (Elt Ideal) ((c : Thread nD τ).loc b))

/-! ## The three input blocks at a point, as entries of the arrays -/

/-- The projection matrix's block at any point is the matrix. -/
theorem iblk0_0 (c : Dev nD) (t : Fin cfg0.N) (r : Fin 256) (d : Fin 64) :
    iblk0 V c 0 t (ix2 r d) = V c main_arg3 (ix2 r d) :=
  read0_0 t (V c main_arg3) r d

/-- The keys' block at point t holds the columns of tile t. -/
theorem iblk0_1 (c : Dev nD) (t : Fin cfg0.N) (d : Fin 64) (p : Fin 4096) :
    iblk0 V c 1 t (ix2 d p) = V c main_arg1 (ix2 d (pos ⟨t.val, lt16_0 t⟩ p)) :=
  read0_1 t (V c main_arg1) d p

/-- The values' block at point t holds the rows of tile t. -/
theorem iblk0_2 (c : Dev nD) (t : Fin cfg0.N) (p : Fin 4096) (v : Fin 64) :
    iblk0 V c 2 t (ix2 p v) = V c main_arg2 (ix2 (pos ⟨t.val, lt16_0 t⟩ p) v) :=
  read0_2 t (V c main_arg2) p v

/-! ## One tile's contribution, and one step of the accumulator -/

/-- The contribution of tile t to entry (r, v) of the summary. -/
def tileTerm (c : Dev nD) (r : Fin 256) (v : Fin 64) (t : Fin 16) : EReal :=
  ∑ p : Fin 4096, Cert.Spec.feat (fun r d => V c main_arg3 (ix2 r d)) (fun d p' => V c main_arg1 (ix2 d (pos t p'))) r p
    * V c main_arg2 (ix2 (pos t p) v)

/-- The body at point t adds tile t's contribution to the accumulator it finds, entry by entry. -/
theorem step_apply (c : Dev nD) (t : Fin cfg0.N) (acc : Vec Ideal S256x64 .f32) (r : Fin 256) (v : Fin 64) :
    k0_pay2 (F := Ideal) (iblk0 V c 0 t) (iblk0 V c 1 t) (iblk0 V c 2 t) acc (ix2 r v)
      = acc (ix2 r v) + tileTerm V c r v ⟨t.val, lt16_0 t⟩ := by
  rw [Cert.KernelIdeal.Pay.pay_acc]
  unfold tileTerm
  simp only [iblk0_0, iblk0_1, iblk0_2]

/-! ## The running sum -/

/-- Entry (r, v) of the accumulator after point n (zero past the grid, where there is no accumulator). -/
def accEntry (c : Dev nD) (r : Fin 256) (v : Fin 64) (n : ℕ) : EReal :=
  if h : n < cfg0.N then accAt V c n h (ix2 r v) else 0

theorem accEntry_of_lt (c : Dev nD) (r : Fin 256) (v : Fin 64) (n : ℕ) (h : n < cfg0.N) :
    accEntry V c r v n = accAt V c n h (ix2 r v) := dif_pos h

/-- After the first point: zero plus the first tile's contribution. -/
theorem accEntry_zero (c : Dev nD) (r : Fin 256) (v : Fin 64) :
    accEntry V c r v 0 = 0 + tileTerm V c r v 0 := by
  have h0 : 0 < cfg0.N := by have : cfg0.N = 16 := N_0; omega
  have e : accAt V c 0 h0
      = k0_pay2 (F := Ideal) (iblk0 V c 0 ⟨0, h0⟩) (iblk0 V c 1 ⟨0, h0⟩) (iblk0 V c 2 ⟨0, h0⟩) (k0_pay1 (F := Ideal)) :=
    accAt_first V c ⟨0, h0⟩ rfl
  refine (accEntry_of_lt V c r v 0 h0).trans ((congrFun e (ix2 r v)).trans ?_)
  refine (step_apply V c ⟨0, h0⟩ (k0_pay1 (F := Ideal)) r v).trans ?_
  rw [Cert.KernelIdeal.Pay.pay_zero]
  rfl

/-- After a later point: what the point before left plus that point's tile's contribution. -/
theorem accEntry_succ (c : Dev nD) (r : Fin 256) (v : Fin 64) (n : ℕ) (h : n + 1 < 16) :
    accEntry V c r v (n + 1) = accEntry V c r v n + tileTerm V c r v ⟨n + 1, h⟩ := by
  have hN : cfg0.N = 16 := N_0
  have h1 : n + 1 < cfg0.N := by omega
  have h0 : n < cfg0.N := by omega
  have e : accAt V c (n + 1) h1
      = k0_pay2 (F := Ideal) (iblk0 V c 0 ⟨n + 1, h1⟩) (iblk0 V c 1 ⟨n + 1, h1⟩) (iblk0 V c 2 ⟨n + 1, h1⟩) (accAt V c n h0) :=
    accAt_pos V c ⟨n + 1, h1⟩ (Nat.succ_ne_zero n)
  rw [accEntry_of_lt V c r v (n + 1) h1, accEntry_of_lt V c r v n h0]
  exact (congrFun e (ix2 r v)).trans (step_apply V c ⟨n + 1, h1⟩ (accAt V c n h0) r v)

/-! ## The accumulator after the last point -/

/-- Entry (r, v) of the accumulator after the last point is entry (r, v) of the specification's key/value summary of
    the projection matrix, the keys and the values as the region finds them. -/
theorem acc_is_kv (c : Dev nD) (r : Fin 256) (v : Fin 64) :
    accAt (F := Ideal) V c 15 (by have : cfg0.N = 16 := N_0; omega) (ix2 r v)
      = Cert.Spec.kv (fun r d => V c main_arg3 (ix2 r d)) (fun d l => V c main_arg1 (ix2 d l))
          (fun l v => V c main_arg2 (ix2 l v)) r v := by
  refine (accEntry_of_lt V c r v 15 _).symm.trans ?_
  refine (Cert.Tiles.fold_tiles (tileTerm V c r v) (accEntry V c r v) (accEntry_zero V c r v)
    (accEntry_succ V c r v)).trans ?_
  exact (Cert.Tiles.kv_tiles (fun r d => V c main_arg3 (ix2 r d)) (fun d l => V c main_arg1 (ix2 d l))
    (fun l v => V c main_arg2 (ix2 l v)) r v).symm

end Cert.KernelIdeal.Val

end
-- ==== Proof.KernelValue.lean ====
/-
  The idealized kernel's result, read at an index, is the specification.
  After both regions the result buffer holds the second region's blocks assembled into one array; at row l and
  column v that array is the sum over the features r of the query feature at (r, l) times what the first region
  left in the summary buffer at (r, v); and what the first region left there is its accumulator after the last
  tile, the sum over all positions of the key feature times the value. The inputs reach both regions as launched.
-/
import proofs.«128242_j35424890257839_1_alg».proof.Proof.TwoRegionRun
import proofs.«128242_j35424890257839_1_alg».proof.Proof.RegionOutArray
import proofs.«128242_j35424890257839_1_alg».proof.Proof.OutValue
import proofs.«128242_j35424890257839_1_alg».proof.Proof.RegionAccArray
import proofs.«128242_j35424890257839_1_alg».proof.Proof.KvValue

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ) (ρ : Dev nD → PrngReg)

/-- The specification at the launch memory's four argument arrays. -/
def specOf (c : Dev nD) (l : Fin 65536) (v : Fin 64) : EReal :=
  Cert.Spec.out (fun r d => m ((c.tc : Thread nD τ).loc main_arg3) (ix2 r d)) (fun d l => m ((c.tc : Thread nD τ).loc main_arg0) (ix2 d l))
    (fun d l => m ((c.tc : Thread nD τ).loc main_arg1) (ix2 d l)) (fun l v => m ((c.tc : Thread nD τ).loc main_arg2) (ix2 l v)) l v

theorem result_is_spec (c : Dev nD) (l : Fin 65536) (v : Fin 64) :
    W2 (F := Ideal) m ρ c (Proc.devRef .tc main_v1) (ix2 l v) = specOf m c l v := by
  rw [W2_main_v1 m ρ c]
  refine (congrFun (final1_3 (V1 m ρ) c) (ix2 l v)).trans ?_
  refine (outArr_ideal (V1 m ρ) c l v).trans ?_
  unfold specOf Cert.Spec.out
  refine Finset.sum_congr rfl fun r _ => ?_
  rw [V1_main_v0 m ρ c, final0_3 (V0 m ρ) c, acc_is_kv (V0 m ρ) c r v, V1_main_arg3 m ρ c, V1_main_arg0 m ρ c]

end Cert.KernelIdeal.Val

end
-- ==== Proof.RefSpec.lean ====
/-
  The reference program computes the specification.

  The reference forms, for the keys and for the queries alike, the feature matrix
      cNorm * exp ((cShift + cScale * (W X)) + cNeg * (column sums of X * X, copied to every row)),
  contracts the key features with the values over all 65536 positions, transposes the query features, and
  contracts them with that summary over the 256 features. Read one operation at a time at an index built from
  its coordinates, each of those steps is the corresponding line of the specification: every index the program
  composes is again an index built from coordinates, the sum of squares starts from the zero word, and the
  four other constants are the same words on both sides.
-/
import proofs.«128242_j35424890257839_1_alg».proof.Proof.Gen.ReferenceIdeal.Read
import proofs.«128242_j35424890257839_1_alg».proof.Proof.Spec

noncomputable section

open scoped BigOperators

namespace Cert.RefSpec

open Cert.ReferenceIdeal Cert.ReferenceIdeal.Read Idealize.ShloMosaic Idealize.ShloMosaic.ValueIdx

/-! ## The composed indices are indices built from coordinates -/

/-- Row r of the projection, entry k: the left operand of the projection product (keys). -/
theorem lidx_v2 (r : Fin 256) (l : Fin 65536) (k : Fin 64) : lidx_main_v2 (ix2 r l) k = ix2 r k :=
  funext fun a => Fin.ext (by match a with | ⟨0, _⟩ => rfl | ⟨1, _⟩ => rfl)

/-- Entry k of column l: the right operand of the projection product (keys). -/
theorem ridx_v2 (r : Fin 256) (l : Fin 65536) (k : Fin 64) : ridx_main_v2 (ix2 r l) k = ix2 k l :=
  funext fun a => Fin.ext (by match a with | ⟨0, _⟩ => rfl | ⟨1, _⟩ => rfl)

/-- The squared norm copied to row r is the one of column l; its k-th summand sits at entry k of column l (keys). -/
theorem idx_v1 (r : Fin 256) (l : Fin 65536) (k : Fin 64) :
    idx_main_v1 (idx_main_v9 (idx_main_v10 (ix2 r l))) k = ix2 k l :=
  funext fun a => Fin.ext (by match a with | ⟨0, _⟩ => rfl | ⟨1, _⟩ => rfl)

/-- Row r of the projection, entry k: the left operand of the projection product (queries). -/
theorem lidx_v18 (r : Fin 256) (l : Fin 65536) (k : Fin 64) : lidx_main_v18 (ix2 r l) k = ix2 r k :=
  funext fun a => Fin.ext (by match a with | ⟨0, _⟩ => rfl | ⟨1, _⟩ => rfl)

/-- Entry k of column l: the right operand of the projection product (queries). -/
theorem ridx_v18 (r : Fin 256) (l : Fin 65536) (k : Fin 64) : ridx_main_v18 (ix2 r l) k = ix2 k l :=
  funext fun a => Fin.ext (by match a with | ⟨0, _⟩ => rfl | ⟨1, _⟩ => rfl)

/-- The squared norm copied to row r is the one of column l; its k-th summand sits at entry k of column l (queries). -/
theorem idx_v17 (r : Fin 256) (l : Fin 65536) (k : Fin 64) :
    idx_main_v17 (idx_main_v25 (idx_main_v26 (ix2 r l))) k = ix2 k l :=
  funext fun a => Fin.ext (by match a with | ⟨0, _⟩ => rfl | ⟨1, _⟩ => rfl)

/-- The key features' operand of the summary at feature r, position l. -/
theorem lidx_v15 (r : Fin 256) (v : Fin 64) (l : Fin 65536) : lidx_main_v15 (ix2 r v) l = ix2 r l :=
  funext fun a => Fin.ext (by match a with | ⟨0, _⟩ => rfl | ⟨1, _⟩ => rfl)

/-- The values' operand of the summary at position l, column v. -/
theorem ridx_v15 (r : Fin 256) (v : Fin 64) (l : Fin 65536) : ridx_main_v15 (ix2 r v) l = ix2 l v :=
  funext fun a => Fin.ext (by match a with | ⟨0, _⟩ => rfl | ⟨1, _⟩ => rfl)

/-- The transposed query features at position l, feature r, are the query features at feature r, position l. -/
theorem idx_v31 (l : Fin 65536) (v : Fin 64) (r : Fin 256) :
    idx_main_v31 (lidx_main_v32 (ix2 l v) r) = ix2 r l :=
  funext fun a => Fin.ext (by match a with | ⟨0, _⟩ => rfl | ⟨1, _⟩ => rfl)

/-- The summary's operand of the result at feature r, column v. -/
theorem ridx_v32 (l : Fin 65536) (v : Fin 64) (r : Fin 256) : ridx_main_v32 (ix2 l v) r = ix2 r v :=
  funext fun a => Fin.ext (by match a with | ⟨0, _⟩ => rfl | ⟨1, _⟩ => rfl)

/-! ## The two feature matrices -/

/-- The reference's key feature matrix is the specification's feature map of the projection and the keys. -/
theorem key_feat (x1 : (⟨S64x65536, .f32⟩ : BufTy).Contents (Elt Ideal)) (x3 : (⟨S256x64, .f32⟩ : BufTy).Contents (Elt Ideal))
    (r : Fin 256) (l : Fin 65536) :
    val_main_v14 (F := Ideal) x1 x3 (ix2 r l)
      = Cert.Spec.feat (fun r d => x3 (ix2 r d)) (fun d l => x1 (ix2 d l)) r l := by
  rw [val_main_v14_apply, val_main_v13_apply, val_main_cst_3_apply, val_main_v12_apply, val_main_v11_apply,
    val_main_v6_apply, val_main_v5_apply, val_main_cst_1_apply, val_main_v4_apply, val_main_v3_apply,
    val_main_cst_0_apply, val_main_v2_apply, val_main_v10_apply, val_main_v9_apply, val_main_v8_apply,
    val_main_v7_apply, val_main_cst_2_apply, val_main_v1_apply, val_main_cst_apply]
  simp only [val_main_v0_apply, lidx_v2, ridx_v2, idx_v1, Ideal.mulf_def, Ideal.addf_def, Ideal.hostUnary_exp_def,
    Ideal.ofBits_def, Ideal.ofBits_zero_f32, zero_add]
  rfl

/-- The reference's query feature matrix is the specification's feature map of the projection and the queries. -/
theorem query_feat (x0 : (⟨S64x65536, .f32⟩ : BufTy).Contents (Elt Ideal)) (x3 : (⟨S256x64, .f32⟩ : BufTy).Contents (Elt Ideal))
    (r : Fin 256) (l : Fin 65536) :
    val_main_v30 (F := Ideal) x0 x3 (ix2 r l)
      = Cert.Spec.feat (fun r d => x3 (ix2 r d)) (fun d l => x0 (ix2 d l)) r l := by
  rw [val_main_v30_apply, val_main_v29_apply, val_main_cst_8_apply, val_main_v28_apply, val_main_v27_apply,
    val_main_v22_apply, val_main_v21_apply, val_main_cst_6_apply, val_main_v20_apply, val_main_v19_apply,
    val_main_cst_5_apply, val_main_v18_apply, val_main_v26_apply, val_main_v25_apply, val_main_v24_apply,
    val_main_v23_apply, val_main_cst_7_apply, val_main_v17_apply, val_main_cst_4_apply]
  simp only [val_main_v16_apply, lidx_v18, ridx_v18, idx_v17, Ideal.mulf_def, Ideal.addf_def, Ideal.hostUnary_exp_def,
    Ideal.ofBits_def, Ideal.ofBits_zero_f32, zero_add]
  rfl

/-! ## The two contractions -/

/-- The reference's key/value summary is the specification's. -/
theorem kv_eq (x1 : (⟨S64x65536, .f32⟩ : BufTy).Contents (Elt Ideal)) (x2 : (⟨S65536x64, .f32⟩ : BufTy).Contents (Elt Ideal))
    (x3 : (⟨S256x64, .f32⟩ : BufTy).Contents (Elt Ideal)) (r : Fin 256) (v : Fin 64) :
    val_main_v15 (F := Ideal) x1 x2 x3 (ix2 r v)
      = Cert.Spec.kv (fun r d => x3 (ix2 r d)) (fun d l => x1 (ix2 d l)) (fun l v => x2 (ix2 l v)) r v := by
  rw [val_main_v15_apply]
  unfold Cert.Spec.kv
  refine Finset.sum_congr rfl fun l _ => ?_
  rw [lidx_v15, ridx_v15, key_feat]

/-- The reference's result, at position l and column v, is the specification's. -/
theorem ref_is_spec (x0 x1 : (⟨S64x65536, .f32⟩ : BufTy).Contents (Elt Ideal)) (x2 : (⟨S65536x64, .f32⟩ : BufTy).Contents (Elt Ideal))
    (x3 : (⟨S256x64, .f32⟩ : BufTy).Contents (Elt Ideal)) (l : Fin 65536) (v : Fin 64) :
    val_main_v32 (F := Ideal) x0 x1 x2 x3 (ix2 l v)
      = Cert.Spec.out (fun r d => x3 (ix2 r d)) (fun d l => x0 (ix2 d l)) (fun d l => x1 (ix2 d l))
          (fun l v => x2 (ix2 l v)) l v := by
  rw [val_main_v32_apply]
  unfold Cert.Spec.out
  refine Finset.sum_congr rfl fun r _ => ?_
  rw [val_main_v31_apply, idx_v31, ridx_v32, query_feat, kv_eq]

end Cert.RefSpec

end
-- ==== Proof.WordRegionOut.lean ====
/-
  The output pass (the program's second kernel region) as a pipeline of four windows — the feature weights, one tile
  of queries, the accumulated key–value table, and one tile of the result — stated at a PARAMETER `V`: whatever
  the TensorCore's buffers hold when the region is entered.  At each of its points the body reads the three input
  blocks whole, and overwrites the whole result tile with one function of them (the generated payload `k1_pay1`);
  it keeps nothing from point to point.  So:

  * each window's block at a point is read off `V` (`iblk1`);
  * what the body leaves in the result tile is the payload of the three input blocks (`out1_3`, `out1_3_eq`):
    a read through the full rectangle at the origin returns the buffer, and one write through it leaves exactly
    what was written;
  * the body, run on whole staging buffers holding `x0 x1 x2` and an arbitrary result tile, hands the inputs back
    unchanged and the result tile at `out1_3 x0 x1 x2` (`sound_kernel1`);
  * the pipeline's proof data records that (`dat1`), an input's buffer holds its block at every point whether or
    not a transfer refilled it there (`before1_0/1/2`: an unrefilled block has not moved), and the body meets the
    pipeline rule's obligation at every point (`body_obligation1`).

  Everything is generic in the float instance.
-/
import proofs.«128242_j35424890257839_1_alg».proof.Proof.Gen.Kernel.Launch
import proofs.«128242_j35424890257839_1_alg».proof.Proof.Gen.Kernel.Skeleton
import proofs.«128242_j35424890257839_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents on entry to the region
variable (V : (c : Dev nD) → (b : Ref sig .tc) → Buf (Elt F) ((c : Thread nD τ).loc b))

/-! ## The blocks -/

/-- Window `w`'s block at point `t`: the part of the window's array, as `V` has it, that the window's index map
    selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The result tile after the body -/

/-- The origin of a rank-2 buffer, as the program spells it, is the zero offset. -/
theorem origin2 : (![0, 0] : Fin 2 → Nat) = fun _ => 0 := funext fun a => by fin_cases a <;> rfl

/-- The full rectangles the body reads and writes through: at the origin, of the buffer's own extents. -/
abbrev fullW : Rect S256x64 := Rect.unit (s := S256x64) ![0, 0] S256x64.size inb_S256x64_S256x64_0_0
abbrev fullQ : Rect S64x4096 := Rect.unit (s := S64x4096) ![0, 0] S64x4096.size inb_S64x4096_S64x4096_0_0
abbrev fullO : Rect S4096x64 := Rect.unit (s := S4096x64) ![0, 0] S4096x64.size inb_S4096x64_S4096x64_0_0

/-- What the body leaves in the result tile, given what the three input buffers read: its single write, through the
    full rectangle, of the payload of the three full reads. -/
def out1_3 (x0 : Vec F S256x64 .f32) (x1 : Vec F S64x4096 .f32) (x2 : Vec F S256x64 .f32) : Vec F S4096x64 .f32 :=
  View.canon [⟨fullO, k1_pay1 (View.ld x0 fullW) (View.ld x1 fullQ) (View.ld x2 fullW)⟩]

/-- A full read is the buffer and a single full write leaves what it wrote: the result tile is the payload of the
    input buffers themselves. -/
theorem out1_3_eq (x0 : Vec F S256x64 .f32) (x1 : Vec F S64x4096 .f32) (x2 : Vec F S256x64 .f32) :
    out1_3 x0 x1 x2 = k1_pay1 x0 x1 x2 := by
  unfold out1_3
  rw [View.canon_unit_zero (S := S4096x64) origin2 inb_S4096x64_S4096x64_0_0,
    View.ld_unit_zero (S := S256x64) origin2 inb_S256x64_S256x64_0_0 x0,
    View.ld_unit_zero (S := S256x64) origin2 inb_S256x64_S256x64_0_0 x2,
    View.ld_unit_zero (S := S64x4096) origin2 inb_S64x4096_S64x4096_0_0 x1]

/-- The single write covers the result tile: every index lies in the full rectangle. -/
theorem fullO_covers (p : Vec F S4096x64 .f32) (y : S4096x64.Idx) :
    ∃ pc ∈ ([⟨fullO, p⟩] : List (View.Piece (Elt F) S4096x64 .f32)), y ∈ pc.1.set :=
  ⟨_, List.mem_singleton_self _, View.mem_set_unit_zero (S := S4096x64) origin2 inb_S4096x64_S4096x64_0_0 y⟩

/-! ## The body's triple -/

set_option maxHeartbeats 1000000 in
/-- The body on whole staging buffers: the three inputs read `x0 x1 x2`, the result tile holds anything. It runs to a
    continuation that is handed the inputs as they were and the result tile at `out1_3 x0 x1 x2`. The body also reads
    the result tile before overwriting it; nothing depends on what that read returns. -/
theorem sound_kernel1 (c : Dev nD) (E : Set ℕ) (i : grid1.Coords)
    (arg1 : Memref sig .tc .vmem S256x64 .f32) (harg1 : arg1.IsWhole) (arg2 : Memref sig .tc .vmem S64x4096 .f32) (harg2 : arg2.IsWhole)
    (arg3 : Memref sig .tc .vmem S256x64 .f32) (harg3 : arg3.IsWhole) (arg4 : Memref sig .tc .vmem S4096x64 .f32) (harg4 : arg4.IsWhole)
    (x0 : Vec F S256x64 .f32) (x1 : Vec F S64x4096 .f32) (x2 : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__out_kernel i arg1 harg1 arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (fullO_covers _)

/-! ## The pipeline's proof data -/

/-- The proof data of the output pass on core `c`. The windowed arrays are as `V` has them. After the body at a
    point, each input's buffer still holds its block, and the result tile holds `out1_3` of the three input blocks.
    The invariant is the plain one of a body that keeps nothing (the scoped rest and the generator register pass
    through untouched); full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-! ## What the body finds in the inputs' buffers

An input window's blocks fill its buffer entirely, the body leaves them in place, and no point is idle for it; so at
every point its current buffer holds the block there — refilled at that point, or left from the point before when the
block index did not move (windows 0 and 2 are filled once, at the first point). -/

/-- What a refill at point `t` puts in input window `w`'s buffer is the block read off `V`. -/
theorem fetched1_0 (c : Dev nD) (t : Fin cfg1.N) (d) : (dat1 V c).fetched 0 t d = iblk1 V c 0 t := by
  unfold Dat.fetched Dat.blockOf iblk1; rw [A_eq1]; try rfl
theorem fetched1_1 (c : Dev nD) (t : Fin cfg1.N) (d) : (dat1 V c).fetched 1 t d = iblk1 V c 1 t := by
  unfold Dat.fetched Dat.blockOf iblk1; rw [A_eq1]; try rfl
theorem fetched1_2 (c : Dev nD) (t : Fin cfg1.N) (d) : (dat1 V c).fetched 2 t d = iblk1 V c 2 t := by
  unfold Dat.fetched Dat.blockOf iblk1; rw [A_eq1]; try rfl

/-- The body leaves each input's block where it was. -/
theorem kept1_0 (c : Dev nD) (t : Fin cfg1.N) :
    (cfg1.win 0).cut (cfg1.grid.coords t) ((dat1 V c).after 0 t) = (dat1 V c).blockOf 0 t := by
  rw [after1_0]; unfold Dat.blockOf iblk1; rw [A_eq1]; try rfl
theorem kept1_1 (c : Dev nD) (t : Fin cfg1.N) :
    (cfg1.win 1).cut (cfg1.grid.coords t) ((dat1 V c).after 1 t) = (dat1 V c).blockOf 1 t := by
  rw [after1_1]; unfold Dat.blockOf iblk1; rw [A_eq1]; try rfl
theorem kept1_2 (c : Dev nD) (t : Fin cfg1.N) :
    (cfg1.win 2).cut (cfg1.grid.coords t) ((dat1 V c).after 2 t) = (dat1 V c).blockOf 2 t := by
  rw [after1_2]; unfold Dat.blockOf iblk1; rw [A_eq1]; try rfl

theorem before1_0 (c : Dev nD) (t : Fin cfg1.N) (d) : (dat1 V c).before 0 t d = iblk1 V c 0 t :=
  ((dat1 V c).before_in_eq_fetched 0 rfl (fun _ => rfl) (fun _ _ _ => rfl) (kept1_0 V c) t d).trans (fetched1_0 V c t d)
theorem before1_1 (c : Dev nD) (t : Fin cfg1.N) (d) : (dat1 V c).before 1 t d = iblk1 V c 1 t :=
  ((dat1 V c).before_in_eq_fetched 1 rfl (fun _ => rfl) (fun _ _ _ => rfl) (kept1_1 V c) t d).trans (fetched1_1 V c t d)
theorem before1_2 (c : Dev nD) (t : Fin cfg1.N) (d) : (dat1 V c).before 2 t d = iblk1 V c 2 t :=
  ((dat1 V c).before_in_eq_fetched 2 rfl (fun _ => rfl) (fun _ _ _ => rfl) (kept1_2 V c) t d).trans (fetched1_2 V c t d)

/-! ## The body obligation -/

/-- What the pipeline hands the body at point `t`: the invariant, what the core owes, and each window's current
    staging buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it takes back: the same at the next point, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies at those blocks; the
    invariant and what the core owes are the same at both ends and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WordRegionAcc.lean ====
import proofs.«128242_j35424890257839_1_alg».proof.Proof.WordRegionOut
import proofs.«128242_j35424890257839_1_alg».proof.Proof.Gen.Kernel.Launch
import proofs.«128242_j35424890257839_1_alg».proof.Proof.Gen.Kernel.Skeleton
import proofs.«128242_j35424890257839_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-
  The first kernel region: the key/value summary accumulated over the sixteen tiles of the sequence axis.
  At every grid point the body adds one tile's contribution to an accumulator kept in a scratch buffer that
  lives from point to point: at the first point the accumulator is zeroed first, at the last point it is also
  copied into the output block, which is written back there and nowhere else. This file states what the
  accumulator holds after each point, the invariant that carries it between points, and that the body meets
  the pipeline's obligation at every point. Everything is generic in the float instance.
-/

local notation "𝕄" => MT nD τ sig Unit (Elt F) ℕ (UR sig nD τ) ℕ

/-! ## The body's two conditions, in closed form over the grid -/

/-- "this is the first point": the condition under which the accumulator is zeroed. -/
abbrev condFirst (i : grid0.Coords) : Prop := (Scalar.cmpi .ne (Scalar.extui (Scalar.cmpi .eq (BitVec.ofNat 32 (i 0).val) 0#32)) 0#32) = 1#1
/-- "this is the last point": the condition under which the accumulator is copied to the output block. -/
abbrev condLast (i : grid0.Coords) : Prop := k0_cond2 i = 1#1

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 15 :=
  (by decide +kernel : ∀ t : Fin grid0.N, condLast (grid0.coords t) ↔ t.val = 15)

/-! ## Where the windows are idle: the inputs never, the output everywhere but at the last point -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3 : ∀ t : Fin cfg0.N, ¬condLast (grid0.coords t) → cfg0.idle 3 (grid0.coords t) = true := by decide +kernel
theorem noFlush0_3 : ∀ t : Fin cfg0.N, ¬condLast (grid0.coords t) → (cfg0.win 3).flush t = false := by decide +kernel
theorem live0_3 : ∀ t : Fin cfg0.N, condLast (grid0.coords t) → cfg0.idle 3 (grid0.coords t) = false := by decide +kernel

/-! ## The memrefs the pipeline calls the body with -/

abbrev ms0_0 (t : Fin cfg0.N) : Memref sig .tc .vmem S256x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x64 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev accM : Memref sig .tc .vmem S256x64 .f32 := Memref.whole cc0_scratch0

/-- The scoped buffers that are neither a staging buffer of this region nor the accumulator (the second region's
    staging buffers), each whole at some contents: they ride through the region untouched. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region's plain invariant (every scoped buffer no window stages at anything, the generator register at some
    state) with the accumulator split off as a memref owned at some contents. -/
theorem PhiA0_eq (c : Dev nD) :
    (Pipeline.ΦA spec0 c : sProp 𝕄)
      = iprop(iprop((∃ d, owns (c : Thread nD τ) accM fullShare d) ∗ otherScoped c) ∗ (∃ r, prngReg c r)) := by
  unfold Pipeline.ΦA otherScoped; rw [scopedRest0_eq]; simp only [accM, owns_whole]; try rfl

/-! ## Whole-buffer reads and writes, over variables

The body reads and writes every buffer through the full rectangle at the origin. Read through it, a buffer gives its
contents; written through it, a buffer holds what was written last, whatever it held before. -/

/-- After writes through the full rectangle, the buffer reads as the last payload written. -/
theorem read_writes_full {κ : Kind} {sp : Space} (v : View sig κ sp S256x64 .f32) (f : v.ty.Contents (Elt F))
    (p : Vec F S256x64 .f32) (L : List (View.Piece (Elt F) S256x64 .f32)) :
    v.read (Elt F) (v.writes (Elt F) f (⟨fullW, p⟩ :: L)) = p := by
  have hcov : ∀ y : S256x64.Idx, ∃ pc ∈ ((⟨fullW, p⟩ : View.Piece (Elt F) S256x64 .f32) :: L), y ∈ pc.1.set :=
    fun y => ⟨⟨fullW, p⟩, List.mem_cons.mpr (Or.inl rfl), View.mem_set_unit_zero (S := S256x64) origin2 inb_S256x64_S256x64_0_0 y⟩
  rw [View.read_writes_eq_canon v f _ hcov]
  exact View.canon_cons_unit_zero (S := S256x64) origin2 inb_S256x64_S256x64_0_0 p L

/-- A read through the full rectangle of what one write through it left is the payload written. -/
theorem readCov_full {κ : Kind} {sp : Space} (v : View sig κ sp S256x64 .f32) (p : Vec F S256x64 .f32) :
    v.readCov [(⟨fullW, p⟩ : View.Piece (Elt F) S256x64 .f32)] fullW.toLoadRect = p :=
  View.readCov_unit_zero v origin2 inb_S256x64_S256x64_0_0 p

/-- A read through the full rectangle of a whole buffer holding `x` is `x` (one statement per buffer shape). -/
theorem readAt_fullW {m : Memref sig .tc .vmem S256x64 .f32} (h : m.IsWhole) (x : Vec F S256x64 .f32) :
    View.readAt (Elt F) m.view fullW.toLoadRect (h.unread x) = x := by
  rw [View.readAt_eq_ld, h.read_unread, View.ld_unit_zero (S := S256x64) origin2 inb_S256x64_S256x64_0_0]
theorem readAt_fullQ {m : Memref sig .tc .vmem S64x4096 .f32} (h : m.IsWhole) (x : Vec F S64x4096 .f32) :
    View.readAt (Elt F) m.view fullQ.toLoadRect (h.unread x) = x := by
  rw [View.readAt_eq_ld, h.read_unread, View.ld_unit_zero (S := S64x4096) origin2 inb_S64x4096_S64x4096_0_0]
theorem readAt_fullO {m : Memref sig .tc .vmem S4096x64 .f32} (h : m.IsWhole) (x : Vec F S4096x64 .f32) :
    View.readAt (Elt F) m.view fullO.toLoadRect (h.unread x) = x := by
  rw [View.readAt_eq_ld, h.read_unread, View.ld_unit_zero (S := S4096x64) origin2 inb_S4096x64_S4096x64_0_0]

/-! ## The body, case by case, on whole memrefs -/

set_option maxHeartbeats 4000000 in
/-- At the first point: the accumulator, found at anything, is zeroed and receives the tile's contribution; the
    output buffer is handed back as found. -/
theorem run_first (c : Dev nD) (E : Set ℕ) (i : grid0.Coords)
    (arg1 : Memref sig .tc .vmem S256x64 .f32) (harg1 : arg1.IsWhole) (arg2 : Memref sig .tc .vmem S64x4096 .f32) (harg2 : arg2.IsWhole)
    (arg3 : Memref sig .tc .vmem S4096x64 .f32) (harg3 : arg3.IsWhole) (arg4 : Memref sig .tc .vmem S256x64 .f32) (harg4 : arg4.IsWhole)
    (arg5 : Memref sig .tc .vmem S256x64 .f32) (harg5 : arg5.IsWhole) (hc1 : condFirst i) (hc2 : ¬condLast i)
    (x0 : Vec F S256x64 .f32) (x1 : Vec F S64x4096 .f32) (x2 : Vec F S4096x64 .f32) (xi : Vec F S256x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (k0_pay2 x0 x1 x2 k0_pay1)) -∗ K ⟨⟩))
      ⊢ wp frame (wpE (defs₀ (F := F)) Variants.none c none) E (cc0__kv_kernel i arg1 harg1 arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%d5, %f5, %hf5, H5⟩, Hk⟩
  obtain rfl := harg1.eq_unread hf0; obtain rfl := harg2.eq_unread hf1; obtain rfl := harg3.eq_unread hf2; obtain rfl := harg4.eq_unread hf3
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H5
  ipureintro
  sl_unfold_words
  rw [read_writes_full]
  rw [readAt_fullW harg1 x0, readAt_fullQ harg2 x1, readAt_fullO harg3 x2, readCov_full]

set_option maxHeartbeats 4000000 in
/-- At a point that is neither first nor last: the accumulator, found at `xs`, receives the tile's contribution;
    the output buffer is handed back as found. -/
theorem run_mid (c : Dev nD) (E : Set ℕ) (i : grid0.Coords)
    (arg1 : Memref sig .tc .vmem S256x64 .f32) (harg1 : arg1.IsWhole) (arg2 : Memref sig .tc .vmem S64x4096 .f32) (harg2 : arg2.IsWhole)
    (arg3 : Memref sig .tc .vmem S4096x64 .f32) (harg3 : arg3.IsWhole) (arg4 : Memref sig .tc .vmem S256x64 .f32) (harg4 : arg4.IsWhole)
    (arg5 : Memref sig .tc .vmem S256x64 .f32) (harg5 : arg5.IsWhole) (hc1 : ¬condFirst i) (hc2 : ¬condLast i)
    (x0 : Vec F S256x64 .f32) (x1 : Vec F S64x4096 .f32) (x2 : Vec F S4096x64 .f32) (xi xs : Vec F S256x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare (k0_pay2 x0 x1 x2 xs)) -∗ K ⟨⟩))
      ⊢ wp frame (wpE (defs₀ (F := F)) Variants.none c none) E (cc0__kv_kernel i arg1 harg1 arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  obtain rfl := harg1.eq_unread hf0; obtain rfl := harg2.eq_unread hf1; obtain rfl := harg3.eq_unread hf2; obtain rfl := harg4.eq_unread hf3
  obtain rfl := harg5.eq_unread hf5
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H5
  ipureintro
  sl_unfold_words
  rw [read_writes_full]
  rw [readAt_fullW harg1 x0, readAt_fullQ harg2 x1, readAt_fullO harg3 x2, readAt_fullW harg5 xs]

set_option maxHeartbeats 4000000 in
/-- At the last point: the accumulator, found at `xs`, receives the tile's contribution, and the output buffer,
    found at anything, receives a copy of it. -/
theorem run_last (c : Dev nD) (E : Set ℕ) (i : grid0.Coords)
    (arg1 : Memref sig .tc .vmem S256x64 .f32) (harg1 : arg1.IsWhole) (arg2 : Memref sig .tc .vmem S64x4096 .f32) (harg2 : arg2.IsWhole)
    (arg3 : Memref sig .tc .vmem S4096x64 .f32) (harg3 : arg3.IsWhole) (arg4 : Memref sig .tc .vmem S256x64 .f32) (harg4 : arg4.IsWhole)
    (arg5 : Memref sig .tc .vmem S256x64 .f32) (harg5 : arg5.IsWhole) (hc1 : ¬condFirst i) (hc2 : condLast i)
    (x0 : Vec F S256x64 .f32) (x1 : Vec F S64x4096 .f32) (x2 : Vec F S4096x64 .f32) (xs : Vec F S256x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2 xs) ∗ owns (c : Thread nD τ) arg5 fullShare (k0_pay2 x0 x1 x2 xs)) -∗ K ⟨⟩))
      ⊢ wp frame (wpE (defs₀ (F := F)) Variants.none c none) E (cc0__kv_kernel i arg1 harg1 arg2 harg2 arg3 harg3 arg4 harg4 arg5 harg5) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, %hf3, H3⟩, ⟨%f5, %hf5, H5⟩, Hk⟩
  obtain rfl := harg1.eq_unread hf0; obtain rfl := harg2.eq_unread hf1; obtain rfl := harg3.eq_unread hf2
  obtain rfl := harg5.eq_unread hf5
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    rw [read_writes_full, readCov_full]
    rw [readAt_fullW harg1 x0, readAt_fullQ harg2 x1, readAt_fullO harg3 x2, readAt_fullW harg5 xs]
  iexists _; isplitr
  swap; · iexact H5
  ipureintro
  sl_unfold_words
  rw [read_writes_full]
  rw [readAt_fullW harg1 x0, readAt_fullQ harg2 x1, readAt_fullO harg3 x2, readAt_fullW harg5 xs]

/-! ## The blocks, and the accumulator point by point -/

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the accumulator holds after the body at point `n`: the zero array plus the contributions of the tiles
    `0 … n`, one added per point — the body's own sum, in the body's own order. -/
def accAt (c : Dev nD) : (n : ℕ) → n < cfg0.N → Vec F S256x64 .f32
  | 0, h => k0_pay2 (iblk0 V c 0 ⟨0, h⟩) (iblk0 V c 1 ⟨0, h⟩) (iblk0 V c 2 ⟨0, h⟩) k0_pay1
  | n + 1, h => k0_pay2 (iblk0 V c 0 ⟨n + 1, h⟩) (iblk0 V c 1 ⟨n + 1, h⟩) (iblk0 V c 2 ⟨n + 1, h⟩) (accAt c n (Nat.lt_of_succ_lt h))

/-- At the first point the accumulator is the tile's contribution added to the zero array. -/
theorem accAt_first (c : Dev nD) (t : Fin cfg0.N) (ht : t.val = 0) :
    accAt V c t.val t.isLt = k0_pay2 (iblk0 V c 0 t) (iblk0 V c 1 t) (iblk0 V c 2 t) k0_pay1 := by
  obtain ⟨n, hn⟩ := t
  cases n with
  | zero => rfl
  | succ n => exact absurd ht (Nat.succ_ne_zero n)

/-- At any later point it is the tile's contribution added to what the point before left. -/
theorem accAt_pos (c : Dev nD) (t : Fin cfg0.N) (ht : t.val ≠ 0) :
    accAt V c t.val t.isLt = k0_pay2 (iblk0 V c 0 t) (iblk0 V c 1 t) (iblk0 V c 2 t) (accAt V c (t.val - 1) (Nat.lt_of_le_of_lt (Nat.sub_le _ _) t.isLt)) := by
  obtain ⟨n, hn⟩ := t
  cases n with
  | zero => exact absurd rfl ht
  | succ n => rfl

/-! ## The invariant that carries the accumulator between points -/

/-- Before the first point: the region's plain invariant (the accumulator at anything). Before any other point: the
    accumulator at what the point before left, beside the other scoped buffers and the generator register. -/
def PhiS (c : Dev nD) : (n : ℕ) → n ≤ cfg0.N → sProp 𝕄
  | 0, _ => Pipeline.ΦA spec0 c
  | n + 1, hn => iprop(iprop(owns (c : Thread nD τ) accM fullShare (accAt V c n hn) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare (accAt V c n hn) ∗ otherScoped c) ∗ (∃ r, prngReg c r)) := rfl

theorem PhiS_pos (c : Dev nD) (n : ℕ) (h : n ≤ cfg0.N) (hz : n ≠ 0) :
    PhiS V c n h = iprop(iprop(owns (c : Thread nD τ) accM fullShare (accAt V c (n - 1) (by omega)) ∗ otherScoped c) ∗ (∃ r, prngReg c r)) := by
  cases n with
  | zero => exact absurd rfl hz
  | succ n => rfl

/-! ## The pipeline's proof data -/

/-- The proof data of the key/value pass on core `c`: the arrays as the region finds them; after the body at a point
    each input's buffer at its block and the output's at the accumulator (it is consulted at the last point only,
    the one point where the output is stored and written back); the invariant above; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = accAt V c t.val t.isLt := by dsimp only [dat0]

theorem PhiS_castSucc (c : Dev nD) (t : Fin cfg0.N) :
    (dat0 V c).Φ t.castSucc = PhiS V c t.val (Nat.le_of_lt t.isLt) := by
  dsimp only [dat0]; simp only [Fin.coe_castSucc]

/-! ## What the body finds in the inputs' buffers

An input's blocks fill its buffer, the body leaves them in place and no point is idle for it: at every point its
current buffer holds the block there, refilled at that point or left from the point before (the projection's one
block is filled once, at the first point). -/

theorem fetched0_0 (c : Dev nD) (t : Fin cfg0.N) (d) : (dat0 V c).fetched 0 t d = iblk0 V c 0 t := by
  unfold Dat.fetched Dat.blockOf iblk0; rw [A_eq0]; try rfl
theorem fetched0_1 (c : Dev nD) (t : Fin cfg0.N) (d) : (dat0 V c).fetched 1 t d = iblk0 V c 1 t := by
  unfold Dat.fetched Dat.blockOf iblk0; rw [A_eq0]; try rfl
theorem fetched0_2 (c : Dev nD) (t : Fin cfg0.N) (d) : (dat0 V c).fetched 2 t d = iblk0 V c 2 t := by
  unfold Dat.fetched Dat.blockOf iblk0; rw [A_eq0]; try rfl

theorem kept0_0 (c : Dev nD) (t : Fin cfg0.N) :
    (cfg0.win 0).cut (cfg0.grid.coords t) ((dat0 V c).after 0 t) = (dat0 V c).blockOf 0 t := by
  rw [after0_0]; unfold Dat.blockOf iblk0; rw [A_eq0]; try rfl
theorem kept0_1 (c : Dev nD) (t : Fin cfg0.N) :
    (cfg0.win 1).cut (cfg0.grid.coords t) ((dat0 V c).after 1 t) = (dat0 V c).blockOf 1 t := by
  rw [after0_1]; unfold Dat.blockOf iblk0; rw [A_eq0]; try rfl
theorem kept0_2 (c : Dev nD) (t : Fin cfg0.N) :
    (cfg0.win 2).cut (cfg0.grid.coords t) ((dat0 V c).after 2 t) = (dat0 V c).blockOf 2 t := by
  rw [after0_2]; unfold Dat.blockOf iblk0; rw [A_eq0]; try rfl

theorem before0_0 (c : Dev nD) (t : Fin cfg0.N) (d) : (dat0 V c).before 0 t d = iblk0 V c 0 t :=
  ((dat0 V c).before_in_eq_fetched 0 rfl (fun _ => rfl) (fun _ _ _ => rfl) (kept0_0 V c) t d).trans (fetched0_0 V c t d)
theorem before0_1 (c : Dev nD) (t : Fin cfg0.N) (d) : (dat0 V c).before 1 t d = iblk0 V c 1 t :=
  ((dat0 V c).before_in_eq_fetched 1 rfl (fun _ => rfl) (fun _ _ _ => rfl) (kept0_1 V c) t d).trans (fetched0_1 V c t d)
theorem before0_2 (c : Dev nD) (t : Fin cfg0.N) (d) : (dat0 V c).before 2 t d = iblk0 V c 2 t :=
  ((dat0 V c).before_in_eq_fetched 2 rfl (fun _ => rfl) (fun _ _ _ => rfl) (kept0_2 V c) t d).trans (fetched0_2 V c t d)

/-! ## Into the invariant and out of it -/

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS, Hoth⟩, Hg⟩
  isplitl [HS Hoth]
  · isplitl [HS]
    · iexists _; iexact HS
    iexact Hoth
  iexact Hg

end Cert.Kernel.Hand

end
-- ==== Proof.WordRegionAccBody.lean ====
/-
  The key/value pass meets the pipeline rule's obligation at every grid point: by cases on the point being the
  last, the first, or one in between (the sixteen points leave no other case), each time with the accumulator
  handed over by the carried invariant at what the point before left and taken back at this point's contents.
  Generic in the float instance.
-/
import proofs.«128242_j35424890257839_1_alg».proof.Proof.WordRegionAcc

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body obligation -/

/-- What the pipeline hands the body at point `t`: the invariant, what the core owes, each window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- What it takes back: the invariant at the next point and each buffer as the window's schedule says — the output's
    as found wherever the point neither stores it nor writes it back. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point. The inputs' buffers hold their blocks. At the last point the invariant hands over the
    accumulator at what the point before left, the body adds the tile and copies the sum into the output buffer. At
    any other point the output buffer goes back untouched; at the first point the accumulator arrives at anything
    and is zeroed, at a middle point it arrives at what the point before left. Each time the invariant takes the
    accumulator back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [live0_0 t], after0_0]
  rw [show (dat0 V c).leavesExact 1 t = owns (c : Thread nD τ) (ms0_1 t) fullShare ((dat0 V c).after 1 t) from by
      unfold Dat.leavesExact; rw [live0_1 t], after0_1]
  rw [show (dat0 V c).leavesExact 2 t = owns (c : Thread nD τ) (ms0_2 t) fullShare ((dat0 V c).after 2 t) from by
      unfold Dat.leavesExact; rw [live0_2 t], after0_2]
  have hN : t.val < 16 := lt_of_lt_of_eq t.isLt (show cfg0.N = 16 from N_0)
  by_cases hl : t.val = 15
  · have hc2 : condLast (grid0.coords t) := (hcondLast t).mpr hl
    have hc1 : ¬condFirst (grid0.coords t) := fun h => by have := (hcondFirst t).mp h; omega
    have hz : t.val ≠ 0 := by omega
    rw [show (dat0 V c).leavesExact 3 t = owns (c : Thread nD τ) (ms0_3 t) fullShare ((dat0 V c).after 3 t) from by
        unfold Dat.leavesExact; rw [live0_3 t hc2], after0_3]
    rw [accAt_pos V c t hz]
    rw [PhiS_castSucc V c t, PhiS_pos V c _ _ hz]
    iintro ⟨⟨⟨HS, Hoth⟩, Hg⟩, Ho, ⟨%d0, H0⟩, ⟨%d1, H1⟩, ⟨%d2, H2⟩, ⟨%d3, H3⟩⟩
    iapply (run_last c Set.univ (grid0.coords t) _ _ _ _ _ _ _ _ _ _ hc1 hc2 (iblk0 V c 0 t) (iblk0 V c 1 t) (iblk0 V c 2 t)
      (accAt V c (t.val - 1) (Nat.lt_of_le_of_lt (Nat.sub_le _ _) t.isLt)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    iexact H3
  · have hc2 : ¬condLast (grid0.coords t) := fun h => hl ((hcondLast t).mp h)
    rw [Dat.leavesExact_idle (dat0 V c) 3 t (idle0_3 t hc2) (noFlush0_3 t hc2)]
    by_cases hz : t.val = 0
    · have hc1 : condFirst (grid0.coords t) := (hcondFirst t).mpr hz
      rw [accAt_first V c t hz]
      rw [PhiS_castSucc V c t, PhiS_zero V c _ _ hz, PhiA0_eq]
      iintro ⟨⟨⟨HS, Hoth⟩, Hg⟩, Ho, ⟨%d0, H0⟩, ⟨%d1, H1⟩, ⟨%d2, H2⟩, ⟨%d3, H3⟩⟩
      iapply (run_first c Set.univ (grid0.coords t) _ _ _ _ _ _ _ _ _ _ hc1 hc2 (iblk0 V c 0 t) (iblk0 V c 1 t) (iblk0 V c 2 t)
        ((dat0 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3
    · have hc1 : ¬condFirst (grid0.coords t) := fun h => hz ((hcondFirst t).mp h)
      rw [accAt_pos V c t hz]
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply (run_mid c Set.univ (grid0.coords t) _ _ _ _ _ _ _ _ _ _ hc1 hc2 (iblk0 V c 0 t) (iblk0 V c 1 t) (iblk0 V c 2 t)
        ((dat0 V c).before 3 t d3) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      iexists _; iexact H3

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.WordTwoRegionRun.lean ====
/-
  The run of the two-region program. @main is two kernel regions and nothing else: the key/value pass, then the output
  pass. Between two regions a core holds every unscoped buffer whole at known contents, its generator register at some
  state, and owes nothing. The contents at the three boundaries are a fold from the launch memory: a region leaves its
  windowed arrays at what its pipeline's write-backs leave (the inputs as entered) and every other buffer as entered.
  Each region is entered by splitting its arrays out of the unscoped buffers and left by putting them back at the
  exit contents. The second region's invariant is the plain one of a body that keeps nothing from point to point; the
  first region's is the carried-accumulator invariant, which is the plain one at the first point and gives the plain one
  back after the last. The launch theorem then says: every weakly fair execution terminates, and every final memory
  holds every unscoped buffer at the last boundary's contents — in particular the result buffer at what the second
  pipeline leaves, and each argument as launched.
  Everything is generic in the float instance.
-/
import proofs.«128242_j35424890257839_1_alg».proof.Proof.Gen.Kernel.Launch
import proofs.«128242_j35424890257839_1_alg».proof.Proof.Gen.Kernel.Skeleton
import proofs.«128242_j35424890257839_1_alg».proof.Proof.Gen.Kernel.Points
import proofs.«128242_j35424890257839_1_alg».proof.Proof.WordRegionOut
import proofs.«128242_j35424890257839_1_alg».proof.Proof.WordRegionAcc
import proofs.«128242_j35424890257839_1_alg».proof.Proof.WordRegionAccBody
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch: what the first region is entered from. -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b
/-- Between the regions: the first region's arrays at what its pipeline leaves, every other buffer as launched. -/
def W1 (c : Dev nD) : Valuation τ sig (Elt F) :=
  Pipeline.withArrays spec0 c (W0 m ρ c) fun w => (dat0 (V0 m ρ) c).arrAt w cfg0.N
/-- The same read at the TensorCore's references (what the second region's proof data take). -/
abbrev V1 : (c : Dev nD) → (b : Ref sig .tc) → Buf (Elt F) ((c : Thread nD τ).loc b) := fun c b => W1 m ρ c b
/-- At the return: the second region's arrays at what its pipeline leaves, every other buffer as between the regions. -/
def W2 (c : Dev nD) : Valuation τ sig (Elt F) :=
  Pipeline.withArrays spec1 c (W1 m ρ c) fun w => (dat1 (V1 m ρ) c).arrAt w cfg1.N
/-- The same read at the TensorCore's references. -/
abbrev V2 : (c : Dev nD) → (b : Ref sig .tc) → Buf (Elt F) ((c : Thread nD τ).loc b) := fun c b => W2 m ρ c b

theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb

/-- At the first region's exit each of its arrays holds what the pipeline leaves, and every other buffer what it held
    at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- At the second region's exit likewise. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## What the last boundary holds: the two results, and the arguments as launched -/

/-- The result buffer ends at what the second pipeline's write-backs leave in its output window's array. -/
theorem W2_main_v1 (c : Dev nD) : W2 m ρ c (Proc.devRef .tc main_v1) = (dat1 (V1 m ρ) c).arrAt 3 cfg1.N :=
  W2_arr m ρ c 3
/-- The summary the second region reads is what the first pipeline's write-backs leave in its output window's array. -/
theorem V1_main_v0 (c : Dev nD) : V1 m ρ c main_v0 = (dat0 (V0 m ρ) c).arrAt 3 cfg0.N :=
  W1_arr m ρ c 3
/-- The first region does not stage the queries: the second region finds them as launched. -/
theorem V1_main_arg0 (c : Dev nD) : V1 m ρ c main_arg0 = m ((c : Thread nD τ).loc main_arg0) :=
  W1_of_ne m ρ c main_arg0 (by decide)
/-- The first region stages the projection matrix as an input: the second region finds it as launched. -/
theorem V1_main_arg3 (c : Dev nD) : V1 m ρ c main_arg3 = m ((c : Thread nD τ).loc main_arg3) :=
  (W1_arr m ρ c 0).trans (((dat0 (V0 m ρ) c).arrAt_in 0 rfl _).trans (A_eq0 (V0 m ρ) c 0))
/-- The keys: an input of the first region, untouched by the second. -/
theorem V1_main_arg1 (c : Dev nD) : V1 m ρ c main_arg1 = m ((c : Thread nD τ).loc main_arg1) :=
  (W1_arr m ρ c 1).trans (((dat0 (V0 m ρ) c).arrAt_in 1 rfl _).trans (A_eq0 (V0 m ρ) c 1))
/-- The values: an input of the first region, untouched by the second. -/
theorem V1_main_arg2 (c : Dev nD) : V1 m ρ c main_arg2 = m ((c : Thread nD τ).loc main_arg2) :=
  (W1_arr m ρ c 2).trans (((dat0 (V0 m ρ) c).arrAt_in 2 rfl _).trans (A_eq0 (V0 m ρ) c 2))

/-- The queries end as launched: an input of the second region. -/
theorem W2_main_arg0 (c : Dev nD) : W2 m ρ c (Proc.devRef .tc main_arg0) = m ((c : Thread nD τ).loc main_arg0) :=
  (W2_arr m ρ c 1).trans ((((dat1 (V1 m ρ) c).arrAt_in 1 rfl _).trans (A_eq1 (V1 m ρ) c 1)).trans (V1_main_arg0 m ρ c))
/-- The keys end as launched: the second region does not stage them. -/
theorem W2_main_arg1 (c : Dev nD) : W2 m ρ c (Proc.devRef .tc main_arg1) = m ((c : Thread nD τ).loc main_arg1) :=
  (W2_of_ne m ρ c main_arg1 (by decide)).trans (V1_main_arg1 m ρ c)
/-- The values end as launched: the second region does not stage them. -/
theorem W2_main_arg2 (c : Dev nD) : W2 m ρ c (Proc.devRef .tc main_arg2) = m ((c : Thread nD τ).loc main_arg2) :=
  (W2_of_ne m ρ c main_arg2 (by decide)).trans (V1_main_arg2 m ρ c)
/-- The projection matrix ends as launched: an input of both regions. -/
theorem W2_main_arg3 (c : Dev nD) : W2 m ρ c (Proc.devRef .tc main_arg3) = m ((c : Thread nD τ).loc main_arg3) :=
  (W2_arr m ρ c 0).trans ((((dat1 (V1 m ρ) c).arrAt_in 0 rfl _).trans (A_eq1 (V1 m ρ) c 0)).trans (V1_main_arg3 m ρ c))

/-! ## The proof data family and the thread state -/

/-- No pipeline has a prefetched table. -/
abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
/-- The last thread state without the `owes`: every unscoped buffer at the last boundary's contents, the generator
    register at some state. -/
abbrev Tₙ (c : Dev nD) : sProp 𝕄 := iprop(StableHlo.held (c : Thread nD τ) (Pipeline.ucRefs τ sig) (W2 m ρ c) ∗ ∃ r, prngReg c r)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- THE FIRST REGION over the thread state: entered from every unscoped buffer as launched, left with its arrays at what
    the pipeline leaves. Its arrays are split out of the unscoped buffers at entry and put back at exit; the generator
    register and the scoped buffers no window stages make the plain invariant, which is the carried invariant at the
    first point, and the carried invariant after the last point gives the plain one back; nothing is owed; the kernel
    has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest spec0 c) : sProp 𝕄) ⊢ Pipeline.ΦA spec0 c := by
      unfold Pipeline.ΦA
      iintro ⟨Hp, -, Hr⟩
      isplitl [Hr]; · iexact Hr
      iexact Hp
    exact h.trans (hin0 (V0 m ρ) c)
  hout c := by
    rw [Pipeline.ownSems0_none]
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hout0 (V0 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from the contents the first leaves, left with its arrays at what its
    pipeline leaves; its invariant is the plain one of a body that keeps nothing from point to point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two regions, and the launch -/

/-- @main's two segments in order. -/
abbrev segs : List (Pipeline.Seg (pcfgs (F := F)) adm (pdats m ρ) () defs₀ 𝒱₀ L lv) :=
  [ .region (reg0 m ρ), .region (reg1 m ρ) ]

/-- @main IS the run of the two segments. -/
theorem main_run (c : Dev nD) : main (F := F) c = Pipeline.Seg.run (segs m ρ) :=
  main_segs adm (pdats m ρ) () 𝒱₀ L lv (reg0 m ρ) (reg1 m ρ) c

set_option backward.isDefEq.respectTransparency.types false in
/-- THE RUN. From any memory with zero counters, every weakly fair execution of @main on the TensorCores terminates,
    nothing faulting, and in every final memory each core's every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun _ h => h)

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (run_all m ρ).mono fun r h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩

end Cert.Kernel.Hand

end
-- ==== Proof.lean ====
/-
  The certificate: a two-pass linear-attention kernel against its plain reference, over the extended reals.

  Both programs compute  out l v = Σ_r feat(W,Q) r l · kv r v  with  kv r v = Σ_l feat(W,K) r l · V l v  and
  feat(W,X) r l = cNorm · exp((cShift + cScale · ⟨W r, X · l⟩) + cNeg · ⟨X · l, X · l⟩)  (Proof/Spec.lean), with the
  same four constants, the same operations in the same order. The kernel accumulates kv over sixteen tiles of
  4096 positions in a buffer it carries from grid point to grid point, then produces the result tile by tile; the
  reference sums over all 65536 positions at once. The one law between them is the regrouping of a sum in a
  commutative monoid (Proof/Tiles.lean), which holds for every extended real: the precondition is never used.

  The frames: each kernel region meets the pipeline rule's obligation at every grid point (Proof/RegionAcc*.lean
  for the accumulating pass, Proof/RegionOut.lean for the output pass), the two regions run one after the other
  (Proof/TwoRegionRun.lean), and every buffer no region writes ends as launched; the word-level program's frame
  is the same development at its own namespace (Proof/Word*.lean). The reference's frame is its run with the
  result forgotten. The idealization rewrote nothing, so there is nothing to preserve.
-/
import proofs.«128242_j35424890257839_1_alg».proof.Defs
import proofs.«128242_j35424890257839_1_alg».proof.Proof.Gen.Kernel
import proofs.«128242_j35424890257839_1_alg».proof.Proof.Gen.Kernel.Skeleton
import proofs.«128242_j35424890257839_1_alg».proof.Proof.Gen.Kernel.Launch
import proofs.«128242_j35424890257839_1_alg».proof.Proof.Gen.Kernel.Regions
import proofs.«128242_j35424890257839_1_alg».proof.Proof.Gen.Kernel.Points
import proofs.«128242_j35424890257839_1_alg».proof.Proof.Gen.KernelIdeal
import proofs.«128242_j35424890257839_1_alg».proof.Proof.Gen.KernelIdeal.Skeleton
import proofs.«128242_j35424890257839_1_alg».proof.Proof.Gen.KernelIdeal.Launch
import proofs.«128242_j35424890257839_1_alg».proof.Proof.Gen.KernelIdeal.Regions
import proofs.«128242_j35424890257839_1_alg».proof.Proof.Gen.KernelIdeal.Points
import proofs.«128242_j35424890257839_1_alg».proof.Proof.Gen.ReferenceIdeal
import proofs.«128242_j35424890257839_1_alg».proof.Proof.Gen.ReferenceIdeal.Run
import proofs.«128242_j35424890257839_1_alg».proof.Proof.Gen.ReferenceIdeal.Read
import proofs.«128242_j35424890257839_1_alg».proof.Proof.Gen.Pre_finite_inputs
import proofs.«128242_j35424890257839_1_alg».proof.Proof.KernelValue
import proofs.«128242_j35424890257839_1_alg».proof.Proof.RefSpec
import proofs.«128242_j35424890257839_1_alg».proof.Proof.WordTwoRegionRun
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as launched. -/
theorem frame_word : Cert.frame_Kernel (hKernel := Cert.Kernel.Gen.facts) (hPre_finite_inputs := Cert.Pre_finite_inputs.Gen.facts) :=
  fun m ρ _ => Cert.Kernel.Hand.frame_all m ρ

/-- So does the idealized kernel. -/
theorem frame_ideal : Cert.frame_KernelIdeal (hKernelIdeal := Cert.KernelIdeal.Gen.facts) (hPre_finite_inputs := Cert.Pre_finite_inputs.Gen.facts) :=
  fun m ρ _ => Cert.KernelIdeal.Hand.frame_all m ρ

/-- The reference's frame is its run with the result forgotten. -/
theorem frame_ref : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the specification of those
    arguments in their result buffer, entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c i => Cert.KernelIdeal.Val.specOf m c (i 0) (i 1), ?_, ?_⟩
  · refine (θ_run Cert.KernelIdeal.defs _ _).mono (fun r h c => ⟨?_, ?_, ?_, ?_, ?_⟩) (Cert.KernelIdeal.Hand.run_all (F := Ideal) m ρ)
    · refine (h c _ (Cert.KernelIdeal.Hand.mem_uc Cert.KernelIdeal.main_v1 (by decide))).trans (funext fun i => ?_)
      obtain ⟨l, v, rfl⟩ : ∃ (l : Fin 65536) (v : Fin 64), i = ix2 l v := ⟨i 0, i 1, eq_ix2 i⟩
      exact Cert.KernelIdeal.Val.result_is_spec m ρ c l v
    · exact (h c _ (Cert.KernelIdeal.Hand.mem_uc Cert.KernelIdeal.main_arg0 (by decide))).trans (Cert.KernelIdeal.Hand.W2_main_arg0 m ρ c)
    · exact (h c _ (Cert.KernelIdeal.Hand.mem_uc Cert.KernelIdeal.main_arg1 (by decide))).trans (Cert.KernelIdeal.Hand.W2_main_arg1 m ρ c)
    · exact (h c _ (Cert.KernelIdeal.Hand.mem_uc Cert.KernelIdeal.main_arg2 (by decide))).trans (Cert.KernelIdeal.Hand.W2_main_arg2 m ρ c)
    · exact (h c _ (Cert.KernelIdeal.Hand.mem_uc Cert.KernelIdeal.main_arg3 (by decide))).trans (Cert.KernelIdeal.Hand.W2_main_arg3 m ρ c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq]
    funext i
    obtain ⟨l, v, rfl⟩ : ∃ (l : Fin 65536) (v : Fin 64), i = ix2 l v := ⟨i 0, i 1, eq_ix2 i⟩
    rw [Cert.RefSpec.ref_is_spec, (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
